-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x24 : Shape := ⟨2, ![8192, 24]⟩
abbrev S131072x64 : Shape := ⟨2, ![131072, 64]⟩
abbrev S24x64 : Shape := ⟨2, ![24, 64]⟩
abbrev S64 : Shape := ⟨1, ![64]⟩
abbrev S2x131072 : Shape := ⟨2, ![2, 131072]⟩
abbrev S_ : Shape := ⟨0, ![]⟩

class Facts : Prop where
  bcast_S_S8192x24 : S_.BroadcastsInDim S8192x24 (![] : Fin 0 → Fin S8192x24.rank)
  reducesTo_S8192x24_S_d0_1 : S8192x24.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S24x64 : S_.BroadcastsInDim S24x64 (![] : Fin 0 → Fin S24x64.rank)
  reducesTo_S24x64_S_d0_1 : S24x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S24x64 1) : IVec S_ 1 :=
  let main_c_5 : IVec S_ 1 := constantI S_ 1 1#1
  let main_v17 : IVec S_ 1 := (fun x v => Host.reduce IntOp.andi x v reducesTo_S24x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8192x24 .f32) (main_arg1 : FVec F S131072x64 .f32) (main_arg2 : FVec F S24x64 .f32) (main_arg3 : FVec F S24x64 .f32) (main_arg4 : FVec F S64 .f32) (main_arg5 : FVec F S64 .f32) (main_arg6 : IVec S2x131072 32) : IVec S_ 1 :=
  let main_v0 : FVec F S8192x24 .f32 := Host.absf main_arg0
  let main_cst : FVec F S_ .f32 := constant S_ .f32 0x7F800000#32
  let main_v1 : FVec F S8192x24 .f32 := broadcastInDim S8192x24 ![] bcast_S_S8192x24 main_cst
  let main_v2 : IVec S8192x24 1 := cmpf .olt main_v0 main_v1
  let main_c : IVec S_ 1 := constantI S_ 1 1#1
  let main_v3 : IVec S_ 1 := (fun x v => Host.reduce IntOp.andi x v reducesTo_S8192x24_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S24x64 .f32 := Host.absf main_arg2
  let main_cst_2 : FVec F S_ .f32 := constant S_ .f32 0x7F800000#32
  let main_v10 : FVec F S24x64 .f32 := broadcastInDim S24x64 ![] bcast_S_S24x64 main_cst_2
  let main_v11 : IVec S24x64 1 := cmpf .olt main_v9 main_v10
  let main_c_3 : IVec S_ 1 := constantI S_ 1 1#1
  let main_v12 : IVec S_ 1 := (fun x v => Host.reduce IntOp.andi x v reducesTo_S24x64_S_d0_1 h_S_) main_v11 main_c_3
  let main_v13 : IVec S_ 1 := andi main_v8 main_v12
  let main_v14 : FVec F S24x64 .f32 := Host.absf main_arg3
  let main_cst_4 : FVec F S_ .f32 := constant S_ .f32 0x7F800000#32
  let main_v15 : FVec F S24x64 .f32 := broadcastInDim S24x64 ![] bcast_S_S24x64 main_cst_4
  let main_v16 : IVec S24x64 1 := cmpf .olt main_v14 main_v15
  fn_part1 (F := F) main_arg4 main_arg5 main_v13 main_v16
-- ==== Kernel.lean ====
abbrev S8192x24 : Shape := ⟨2, ![8192, 24]⟩
abbrev S131072x64 : Shape := ⟨2, ![131072, 64]⟩
abbrev S24x64 : Shape := ⟨2, ![24, 64]⟩
abbrev S64 : Shape := ⟨1, ![64]⟩
abbrev S2x131072 : Shape := ⟨2, ![2, 131072]⟩
abbrev S8192x64 : Shape := ⟨2, ![8192, 64]⟩
abbrev S64x128x1x64 : Shape := ⟨4, ![64, 128, 1, 64]⟩
abbrev S64x1x128x64 : Shape := ⟨4, ![64, 1, 128, 64]⟩
abbrev S64x128x128x64 : Shape := ⟨4, ![64, 128, 128, 64]⟩
abbrev S1x128x1x64 : Shape := ⟨4, ![1, 128, 1, 64]⟩
abbrev S1x1x128x64 : Shape := ⟨4, ![1, 1, 128, 64]⟩
abbrev S1x128x128x64 : Shape := ⟨4, ![1, 128, 128, 64]⟩
abbrev S128x1x64 : Shape := ⟨3, ![128, 1, 64]⟩
abbrev S1x128x64 : Shape := ⟨3, ![1, 128, 64]⟩
abbrev S128x128x64 : Shape := ⟨3, ![128, 128, 64]⟩
abbrev S1048576x64 : Shape := ⟨2, ![1048576, 64]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S1x64 : Shape := ⟨2, ![1, 64]⟩
abbrev S16384x64 : Shape := ⟨2, ![16384, 64]⟩

abbrev nBuf : Space → Nat
  | .hbm => 120
  | .vmem => 16
  | .smem => 0
  | _ => 0

abbrev bufTy : (tb : Table) → Fin (tcTables nBuf tb) → BufTy
  | .hbm, ⟨0, _⟩ => ⟨S8192x24, .f32⟩
  | .hbm, ⟨1, _⟩ => ⟨S131072x64, .f32⟩
  | .hbm, ⟨2, _⟩ => ⟨S24x64, .f32⟩
  | .hbm, ⟨3, _⟩ => ⟨S24x64, .f32⟩
  | .hbm, ⟨4, _⟩ => ⟨S64, .f32⟩
  | .hbm, ⟨5, _⟩ => ⟨S64, .f32⟩
  | .hbm, ⟨6, _⟩ => ⟨S2x131072, .i32⟩
  | .hbm, ⟨7, _⟩ => ⟨S8192x64, .f32⟩
  | .hbm, ⟨8, _⟩ => ⟨S8192x64, .f32⟩
  | .hbm, ⟨9, _⟩ => ⟨S64x128x1x64, .f32⟩
  | .hbm, ⟨10, _⟩ => ⟨S64x1x128x64, .f32⟩
  | .hbm, ⟨11, _⟩ => ⟨S64x128x128x64, .f32⟩
  | .hbm, ⟨12, _⟩ => ⟨S1048576x64, .f32⟩
  | .hbm, ⟨13, _⟩ => ⟨S1x131072, .i32⟩
  | .hbm, ⟨14, _⟩ => ⟨S131072, .i32⟩
  | .hbm, ⟨15, _⟩ => ⟨S_, .i32⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S131072, .i32⟩
  | .hbm, ⟨24, _⟩ => ⟨S131072, .i32⟩
  | .hbm, ⟨25, _⟩ => ⟨S_, .i32⟩
  | .hbm, ⟨26, _⟩ => ⟨S131072, .i32⟩
  | .hbm, ⟨27, _⟩ => ⟨S131072, .i1⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S1x131072, .i32⟩
  | .hbm, ⟨34, _⟩ => ⟨S131072, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S_, .i32⟩
  | .hbm, ⟨44, _⟩ => ⟨S131072, .i32⟩
  | .hbm, ⟨45, _⟩ => ⟨S131072, .i1⟩
  | .hbm, ⟨46, _⟩ => ⟨S_, .i32⟩
  | .hbm, ⟨47, _⟩ => ⟨S131072, .i32⟩
  | .hbm, ⟨48, _⟩ => ⟨S131072, .i1⟩
  | .hbm, ⟨49, _⟩ => ⟨S_, .i32⟩
  | .hbm, ⟨50, _⟩ => ⟨S_, .i1⟩
  | .hbm, ⟨51, _⟩ => ⟨S131072, .i1⟩
  | .hbm, ⟨52, _⟩ => ⟨S131072, .i1⟩
  | .hbm, ⟨53, _⟩ => ⟨S131072, .i1⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S1x131072, .i32⟩
  | .hbm, ⟨58, _⟩ => ⟨S131072, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S131072, .i32⟩
  | .hbm, ⟨66, _⟩ => ⟨S131072, .i32⟩
  | .hbm, ⟨67, _⟩ => ⟨S_, .i32⟩
  | .hbm, ⟨68, _⟩ => ⟨S131072, .i32⟩
  | .hbm, ⟨69, _⟩ => ⟨S131072, .i1⟩
  | .hbm, ⟨70, _⟩ => ⟨S_, .i32⟩
  | .hbm, ⟨71, _⟩ => ⟨S131072, .i32⟩
  | .hbm, ⟨72, _⟩ => ⟨S131072, .i1⟩
  | .hbm, ⟨73, _⟩ => ⟨S_, .i32⟩
  | .hbm, ⟨74, _⟩ => ⟨S_, .i1⟩
  | .hbm, ⟨75, _⟩ => ⟨S131072, .i1⟩
  | .hbm, ⟨76, _⟩ => ⟨S131072, .i1⟩
  | .hbm, ⟨77, _⟩ => ⟨S131072, .i1⟩
  | .hbm, ⟨78, _⟩ => ⟨S131072, .i32⟩
  | .hbm, ⟨79, _⟩ => ⟨S131072, .i32⟩
  | .hbm, ⟨80, _⟩ => ⟨S131072, .i32⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S_, .i32⟩
  | .hbm, ⟨85, _⟩ => ⟨S131072, .i32⟩
  | .hbm, ⟨86, _⟩ => ⟨S131072, .i32⟩
  | .hbm, ⟨87, _⟩ => ⟨S131072, .i32⟩
  | .hbm, ⟨88, _⟩ => ⟨S131072, .i32⟩
  | .hbm, ⟨89, _⟩ => ⟨S_, .i32⟩
  | .hbm, ⟨90, _⟩ => ⟨S131072, .i32⟩
  | .hbm, ⟨91, _⟩ => ⟨S131072, .i1⟩
  | .hbm, ⟨92, _⟩ => ⟨S_, .i32⟩
  | .hbm, ⟨93, _⟩ => ⟨S131072, .i32⟩
  | .hbm, ⟨94, _⟩ => ⟨S131072, .i32⟩
  | .hbm, ⟨95, _⟩ => ⟨S131072, .i32⟩
  | .hbm, ⟨96, _⟩ => ⟨S131072x1, .i32⟩
  | .hbm, ⟨97, _⟩ => ⟨S1048576x64, .f32⟩
  | .hbm, ⟨98, _⟩ => ⟨S1x64, .f32⟩
  | .hbm, ⟨99, _⟩ => ⟨S1x64, .f32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64, .f32⟩
  | .hbm, ⟨114, _⟩ => ⟨S64, .f32⟩
  | .hbm, ⟨115, _⟩ => ⟨S64, .f32⟩
  | .hbm, ⟨116, _⟩ => ⟨S64, .f32⟩
  | .hbm, ⟨117, _⟩ => ⟨S1x64, .f32⟩
  | .hbm, ⟨118, _⟩ => ⟨S1x64, .f32⟩
  | .hbm, ⟨119, _⟩ => ⟨S1048576x64, .f32⟩
  | .local _ .vmem, ⟨0, _⟩ => ⟨S1x128x1x64, .f32⟩
  | .local _ .vmem, ⟨1, _⟩ => ⟨S1x128x1x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x128x128x64, .f32⟩
  | .local _ .vmem, ⟨5, _⟩ => ⟨S1x128x128x64, .f32⟩
  | .local _ .vmem, ⟨6, _⟩ => ⟨S16384x64, .f32⟩
  | .local _ .vmem, ⟨7, _⟩ => ⟨S16384x64, .f32⟩
  | .local _ .vmem, ⟨8, _⟩ => ⟨S1x64, .f32⟩
  | .local _ .vmem, ⟨9, _⟩ => ⟨S1x64, .f32⟩
  | .local _ .vmem, ⟨10, _⟩ => ⟨S16384x64, .f32⟩
  | .local _ .vmem, ⟨11, _⟩ => ⟨S16384x64, .f32⟩
  | .local _ .vmem, ⟨12, _⟩ => ⟨S1x64, .f32⟩
  | .local _ .vmem, ⟨13, _⟩ => ⟨S1x64, .f32⟩
  | .local _ .vmem, ⟨14, _⟩ => ⟨S16384x64, .f32⟩
  | .local _ .vmem, ⟨15, _⟩ => ⟨S16384x64, .f32⟩
  | _, _ => ⟨S8192x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_c_1 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v14 : Ref sig .tc := ⟨.hbm, 80, rfl⟩
abbrev main_c_2 : Ref sig .tc := ⟨.hbm, 81, rfl⟩
abbrev main_v15 : Ref sig .tc := ⟨.hbm, 82, rfl⟩
abbrev main_v16 : Ref sig .tc := ⟨.hbm, 83, rfl⟩
abbrev main_c_3 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_c_4 : Ref sig .tc := ⟨.hbm, 89, rfl⟩
abbrev main_v21 : Ref sig .tc := ⟨.hbm, 90, rfl⟩
abbrev main_v22 : Ref sig .tc := ⟨.hbm, 91, rfl⟩
abbrev main_c_5 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28_0 : Ref sig .tc := ⟨.hbm, 98, rfl⟩
abbrev main_v28_1 : Ref sig .tc := ⟨.hbm, 99, rfl⟩
abbrev main_v29 : Ref sig .tc := ⟨.hbm, 100, rfl⟩
abbrev main_cst : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_cst_6 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_cst_7 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16384x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8192x64_S64x128x1x64 : S8192x64.ShapeCasts S64x128x1x64
  shapeCasts_S8192x64_S64x1x128x64 : S8192x64.ShapeCasts S64x1x128x64
  inb_S1x128x1x64_S1x128x1x64_0_0_0_0 : ∀ a, (![0, 0, 0, 0] : Fin 4 → Nat) a + S1x128x1x64.size a ≤ S1x128x1x64.size a
  h_S1x128x1x64 : 0 < S1x128x1x64.numel
  shapeCasts_S1x128x1x64_S128x1x64 : S1x128x1x64.ShapeCasts S128x1x64
  inb_S1x1x128x64_S1x1x128x64_0_0_0_0 : ∀ a, (![0, 0, 0, 0] : Fin 4 → Nat) a + S1x1x128x64.size a ≤ S1x1x128x64.size a
  h_S1x1x128x64 : 0 < S1x1x128x64.numel
  shapeCasts_S1x1x128x64_S1x128x64 : S1x1x128x64.ShapeCasts S1x128x64
  broadcasts_S128x1x64_S128x128x64 : S128x1x64.Broadcasts S128x128x64
  broadcasts_S1x128x64_S128x128x64 : S1x128x64.Broadcasts S128x128x64
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  shapeCasts_S128x128x64_S1x128x128x64 : S128x128x64.ShapeCasts S1x128x128x64
  shapeCasts_S64x128x128x64_S1048576x64 : S64x128x128x64.ShapeCasts S1048576x64
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  slices_S2x131072_S1x131072_1_0 : S2x131072.Slices ![1, 0] S1x131072
  bcast_S131072_S131072x1_0 : S131072.BroadcastsInDim S131072x1 (![0] : Fin 1 → Fin S131072x1.rank)
  inb_S1x64_S1x64_0_0 : ∀ a, (![0, 0] : Fin 2 → Nat) a + S1x64.size a ≤ S1x64.size a
  h_S1x64 : 0 < S1x64.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  shapeCasts_S1x64_S1x64 : S1x64.ShapeCasts S1x64
  reduces_S16384x64_S64 : S16384x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  broadcasts_S1x64_S16384x64 : S1x64.Broadcasts S16384x64
  dot_S8192x24_S24x64_S8192x64_1_0_0_1_n_n_wf : DotDims.WF S8192x24 S24x64 S8192x64 [1] [0] [0] [1] [] []
  scatter_S1048576x64_S131072x1_S131072x64_1_0_0_1_wf : ScatterDims.WF S1048576x64 S131072x1 S131072x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1x64.size a ≤ S64x128x1x64.size a
  hwx0_0 : ∀ i : grid0.Coords, EltTy.bits .f32 = 32 ∨ (Rect.block (s := S64x128x1x64) S1x128x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x64.size a ≤ S64x1x128x64.size a
  hwx0_1 : ∀ i : grid0.Coords, EltTy.bits .f32 = 32 ∨ (Rect.block (s := S64x1x128x64) S1x1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128x64.size a ≤ S64x128x128x64.size a
  hwx0_2 : ∀ i : grid0.Coords, EltTy.bits .f32 = 32 ∨ (Rect.block (s := S64x128x128x64) S1x128x128x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S1048576x64.size a
  hwx1_0 : ∀ i : grid1.Coords, EltTy.bits .f32 = 32 ∨ (Rect.block (s := S1048576x64) S16384x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x64.size a ≤ S1048576x64.size a
  hwx2_0 : ∀ i : grid2.Coords, EltTy.bits .f32 = 32 ∨ (Rect.block (s := S1048576x64) S16384x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16384x64.size a ≤ S1048576x64.size a
  hwx2_3 : ∀ i : grid2.Coords, EltTy.bits .f32 = 32 ∨ (Rect.block (s := S1048576x64) S16384x64.size (cc2_transform_3 i) (hinb2_3 i)).WholeWords (EltTy.packing .f32)

variable [Facts₀]

def dot_S8192x24_S24x64_S8192x64_1_0_0_1_n_n : DotDims S8192x24 S24x64 S8192x64 where
  lhsContracting := [1]
  rhsContracting := [0]
  lhsNonContracting := [0]
  rhsNonContracting := [1]
  lhsBatch := []
  rhsBatch := []
  wf := dot_S8192x24_S24x64_S8192x64_1_0_0_1_n_n_wf
def scatter_S1048576x64_S131072x1_S131072x64_1_0_0_1 : ScatterDims S1048576x64 S131072x1 S131072x64 where
  updateWindowDims := [1]
  insertedWindowDims := [0]
  scatterDimsToOperandDims := [0]
  indexVectorDim := 1
  wf := scatter_S1048576x64_S131072x1_S131072x64_1_0_0_1_wf

abbrev win0_0 : Pipeline.Window sig grid0 :=
  Pipeline.Window.ofSpec (Memref.whole main_v2) S1x128x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128x128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S16384x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S16384x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x24 : Shape := ⟨2, ![8192, 24]⟩
abbrev S131072x64 : Shape := ⟨2, ![131072, 64]⟩
abbrev S24x64 : Shape := ⟨2, ![24, 64]⟩
abbrev S64 : Shape := ⟨1, ![64]⟩
abbrev S2x131072 : Shape := ⟨2, ![2, 131072]⟩
abbrev S8192x64 : Shape := ⟨2, ![8192, 64]⟩
abbrev S64x128x1x64 : Shape := ⟨4, ![64, 128, 1, 64]⟩
abbrev S64x1x128x64 : Shape := ⟨4, ![64, 1, 128, 64]⟩
abbrev S64x128x128x64 : Shape := ⟨4, ![64, 128, 128, 64]⟩
abbrev S1048576x64 : Shape := ⟨2, ![1048576, 64]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S8192x24, .f32⟩
  | 1 => ⟨S131072x64, .f32⟩
  | 2 => ⟨S24x64, .f32⟩
  | 3 => ⟨S24x64, .f32⟩
  | 4 => ⟨S64, .f32⟩
  | 5 => ⟨S64, .f32⟩
  | 6 => ⟨S2x131072, .i32⟩
  | 7 => ⟨S8192x64, .f32⟩
  | 8 => ⟨S8192x64, .f32⟩
  | 9 => ⟨S64x128x1x64, .f32⟩
  | 10 => ⟨S64x1x128x64, .f32⟩
  | 11 => ⟨S64x128x128x64, .f32⟩
  | 12 => ⟨S64x128x128x64, .f32⟩
  | 13 => ⟨S64x128x128x64, .f32⟩
  | 14 => ⟨S1048576x64, .f32⟩
  | 15 => ⟨S1x131072, .i32⟩
  | 16 => ⟨S131072, .i32⟩
  | 17 => ⟨S_, .i32⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S131072, .i32⟩
  | 26 => ⟨S131072, .i32⟩
  | 27 => ⟨S_, .i32⟩
  | 28 => ⟨S131072, .i32⟩
  | 29 => ⟨S131072, .i1⟩
  | 30 => ⟨S131072, .i1⟩
  | 31 => ⟨S_, .i32⟩
  | 32 => ⟨S131072, .i32⟩
  | 33 => ⟨S131072, .i32⟩
  | 34 => ⟨S131072, .i32⟩
  | 35 => ⟨S1x131072, .i32⟩
  | 36 => ⟨S131072, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S131072, .i32⟩
  | 44 => ⟨S131072, .i32⟩
  | 45 => ⟨S_, .i32⟩
  | 46 => ⟨S131072, .i32⟩
  | 47 => ⟨S131072, .i1⟩
  | 48 => ⟨S_, .i32⟩
  | 49 => ⟨S131072, .i32⟩
  | 50 => ⟨S131072, .i1⟩
  | 51 => ⟨S_, .i32⟩
  | 52 => ⟨S_, .i1⟩
  | 53 => ⟨S131072, .i1⟩
  | 54 => ⟨S131072, .i1⟩
  | 55 => ⟨S131072, .i1⟩
  | 56 => ⟨S131072, .i32⟩
  | 57 => ⟨S131072, .i32⟩
  | 58 => ⟨S131072, .i32⟩
  | 59 => ⟨S1x131072, .i32⟩
  | 60 => ⟨S131072, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S131072, .i32⟩
  | 68 => ⟨S131072, .i32⟩
  | 69 => ⟨S_, .i32⟩
  | 70 => ⟨S131072, .i32⟩
  | 71 => ⟨S131072, .i1⟩
  | 72 => ⟨S_, .i32⟩
  | 73 => ⟨S131072, .i32⟩
  | 74 => ⟨S131072, .i1⟩
  | 75 => ⟨S_, .i32⟩
  | 76 => ⟨S_, .i1⟩
  | 77 => ⟨S131072, .i1⟩
  | 78 => ⟨S131072, .i1⟩
  | 79 => ⟨S131072, .i1⟩
  | 80 => ⟨S131072, .i32⟩
  | 81 => ⟨S131072, .i32⟩
  | 82 => ⟨S131072, .i32⟩
  | 83 => ⟨S_, .i32⟩
  | 84 => ⟨S131072, .i32⟩
  | 85 => ⟨S131072, .i32⟩
  | 86 => ⟨S_, .i32⟩
  | 87 => ⟨S131072, .i32⟩
  | 88 => ⟨S131072, .i32⟩
  | 89 => ⟨S131072, .i32⟩
  | 90 => ⟨S131072, .i32⟩
  | 91 => ⟨S_, .i32⟩
  | 92 => ⟨S131072, .i32⟩
  | 93 => ⟨S131072, .i1⟩
  | 94 => ⟨S_, .i32⟩
  | 95 => ⟨S131072, .i32⟩
  | 96 => ⟨S131072, .i32⟩
  | 97 => ⟨S131072, .i32⟩
  | 98 => ⟨S131072x1, .i32⟩
  | 99 => ⟨S1048576x64, .f32⟩
  | 100 => ⟨S_, .f32⟩
  | 101 => ⟨S64, .f32⟩
  | 102 => ⟨S_, .f32⟩
  | 103 => ⟨S64, .f32⟩
  | 104 => ⟨S64, .f32⟩
  | 105 => ⟨S1x64, .f32⟩
  | 106 => ⟨S1048576x64, .f32⟩
  | 107 => ⟨S1048576x64, .f32⟩
  | 108 => ⟨S1048576x64, .f32⟩
  | 109 => ⟨S_, .f32⟩
  | 110 => ⟨S64, .f32⟩
  | 111 => ⟨S_, .f32⟩
  | 112 => ⟨S64, .f32⟩
  | 113 => ⟨S64, .f32⟩
  | 114 => ⟨S1x64, .f32⟩
  | 115 => ⟨S1048576x64, .f32⟩
  | 116 => ⟨S1048576x64, .f32⟩
  | 117 => ⟨S_, .f32⟩
  | 118 => ⟨S64, .f32⟩
  | 119 => ⟨S64, .f32⟩
  | 120 => ⟨S64, .f32⟩
  | 121 => ⟨S1x64, .f32⟩
  | 122 => ⟨S1048576x64, .f32⟩
  | 123 => ⟨S1048576x64, .f32⟩
  | 124 => ⟨S1x64, .f32⟩
  | 125 => ⟨S1048576x64, .f32⟩
  | 126 => ⟨S1048576x64, .f32⟩
  | 127 => ⟨S1x64, .f32⟩
  | _ => ⟨S8192x24, .f32⟩

abbrev hbmTy0_1 (i : Nat) : BufTy := match i % 128 with
  | 0 => ⟨S1048576x64, .f32⟩
  | 1 => ⟨S1048576x64, .f32⟩
  | _ => ⟨S8192x24, .f32⟩

abbrev hbmTy (i : Nat) : BufTy := match i / 128 with
  | 0 => hbmTy0_0 i
  | 1 => hbmTy0_1 i
  | _ => ⟨S8192x24, .f32⟩

abbrev bufTy : (tb : Table) → Fin (tcTables nBuf tb) → BufTy
  | .hbm, ⟨i, _⟩ => hbmTy i
  | _, _ => ⟨S8192x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_c_1 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v16 : Ref sig .tc := ⟨.hbm, 82, rfl⟩
abbrev main_c_2 : Ref sig .tc := ⟨.hbm, 83, rfl⟩
abbrev main_v17 : Ref sig .tc := ⟨.hbm, 84, rfl⟩
abbrev main_v18 : Ref sig .tc := ⟨.hbm, 85, rfl⟩
abbrev main_c_3 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_c_4 : Ref sig .tc := ⟨.hbm, 91, rfl⟩
abbrev main_v23 : Ref sig .tc := ⟨.hbm, 92, rfl⟩
abbrev main_v24 : Ref sig .tc := ⟨.hbm, 93, rfl⟩
abbrev main_c_5 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_cst : Ref sig .tc := ⟨.hbm, 100, rfl⟩
abbrev main_v30 : Ref sig .tc := ⟨.hbm, 101, rfl⟩
abbrev main_cst_6 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_cst_7 : Ref sig .tc := ⟨.hbm, 109, rfl⟩
abbrev main_v37 : Ref sig .tc := ⟨.hbm, 110, rfl⟩
abbrev main_cst_8 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩

abbrev nD : Nat := 1
abbrev τ : Topo := Topo.v7x

variable {F : FTy → Type} [FloatOps F]

class Facts₀ : Prop where
  shapeCasts_S8192x64_S64x128x1x64 : S8192x64.ShapeCasts S64x128x1x64
  shapeCasts_S8192x64_S64x1x128x64 : S8192x64.ShapeCasts S64x1x128x64
  bcast_S64x128x1x64_S64x128x128x64_0_1_2_3 : S64x128x1x64.BroadcastsInDim S64x128x128x64 (![0, 1, 2, 3] : Fin 4 → Fin S64x128x128x64.rank)
  bcast_S64x1x128x64_S64x128x128x64_0_1_2_3 : S64x1x128x64.BroadcastsInDim S64x128x128x64 (![0, 1, 2, 3] : Fin 4 → Fin S64x128x128x64.rank)
  shapeCasts_S64x128x128x64_S1048576x64 : S64x128x128x64.ShapeCasts S1048576x64
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  slices_S2x131072_S1x131072_1_0 : S2x131072.Slices ![1, 0] S1x131072
  bcast_S131072_S131072x1_0 : S131072.BroadcastsInDim S131072x1 (![0] : Fin 1 → Fin S131072x1.rank)
  reducesTo_S1048576x64_S64_d0 : S1048576x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  dot_S8192x24_S24x64_S8192x64_1_0_0_1_n_n_wf : DotDims.WF S8192x24 S24x64 S8192x64 [1] [0] [0] [1] [] []
  scatter_S1048576x64_S131072x1_S131072x64_1_0_0_1_wf : ScatterDims.WF S1048576x64 S131072x1 S131072x64 [1] [0] [0] 1

variable [Facts₀]

def dot_S8192x24_S24x64_S8192x64_1_0_0_1_n_n : DotDims S8192x24 S24x64 S8192x64 where
  lhsContracting := [1]
  rhsContracting := [0]
  lhsNonContracting := [0]
  rhsNonContracting := [1]
  lhsBatch := []
  rhsBatch := []
  wf := dot_S8192x24_S24x64_S8192x64_1_0_0_1_n_n_wf
def scatter_S1048576x64_S131072x1_S131072x64_1_0_0_1 : ScatterDims S1048576x64 S131072x1 S131072x64 where
  updateWindowDims := [1]
  insertedWindowDims := [0]
  scatterDimsToOperandDims := [0]
  indexVectorDim := 1
  wf := scatter_S1048576x64_S131072x1_S131072x64_1_0_0_1_wf

class Facts : Prop extends Facts₀ where

variable [Facts]
-- ==== Proof.KernelRun.lean ====
/-
  The idealized kernel program's run with its result named.

  From any memory with zero counters every weakly fair execution of the program terminates without a fault, its seven
  argument arrays end as they were launched, and its result array ends at the contents that the last of the
  program's three launches leaves in it, reached by folding the host operations and the three launches' write-backs
  from the launch memory (`W12`, the last of the boundary contents of the generated frame). This is the frame claim's run
  with one more buffer read off the final thread state.
-/
import proofs.«103970_j66271345377493_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at `W12`'s contents of it and the
    arguments as launched: each unscoped buffer of the final state is read against the last thread state. -/
theorem run_result : θ_run defs (onTc (τ := τ) (main (F := F))) ⟨m, fun _ => 0, ρ⟩ (fun r => ∀ c : Dev nD,
      r.2.mem ((c.tc : Thread nD τ).loc main_v45) = W12 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v45 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Result

end
-- ==== Proof.KernelHost.lean ====
/-
  The host operations of the idealized kernel program, read between its launches.

  Before the first launch the node features are projected twice, X₀·W_src and X₀·W_dst, and each product is re-laid
  with a unit axis: these are the two arrays the first launch reads. Between the first and the second launch the
  array of all pairs is flattened to one row per pair, the edge list is turned into a column of row numbers, and
  the edge attributes are added into the rows the edges name; nothing there touches the other argument arrays.
  Each statement below says what one buffer holds at such a boundary, as the composed operations of the buffers it
  was computed from.
-/
import proofs.«103970_j66271345377493_1_alg».proof.Proof.Gen.KernelIdeal.Frame
import Idealize.ShloMosaic.Lib.StableHlo.Run

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg) (c : Dev nD)

/-! ## Before the first launch -/

/-- The source rows: the node features times the source weights, with a unit axis for the destination node. -/
theorem src_rows : W1 m ρ c (Proc.devRef .tc main_v2)
    = shapeCast S64x128x1x64 (Host.dotGeneral dot_S8192x24_S24x64_S8192x64_1_0_0_1_n_n none
        (m ((c : Thread nD τ).loc main_arg0)) (m ((c : Thread nD τ).loc main_arg2))) shapeCasts_S8192x64_S64x128x1x64 := by
  show StableHlo.after hostOps0 (W0 m ρ c) (Proc.devRef .tc main_v2) = _
  after_results
  rfl

/-- The destination rows: the node features times the destination weights, with a unit axis for the source node. -/
theorem dst_rows : W1 m ρ c (Proc.devRef .tc main_v3)
    = shapeCast S64x1x128x64 (Host.dotGeneral dot_S8192x24_S24x64_S8192x64_1_0_0_1_n_n none
        (m ((c : Thread nD τ).loc main_arg0)) (m ((c : Thread nD τ).loc main_arg3))) shapeCasts_S8192x64_S64x1x128x64 := by
  show StableHlo.after hostOps0 (W0 m ρ c) (Proc.devRef .tc main_v3) = _
  after_results
  rfl

/-- The operations before the first launch write none of the arguments. -/
theorem arg_W1 (b : Ref sig .tc) (hb : b = main_arg1 ∨ b = main_arg4 ∨ b = main_arg5 ∨ b = main_arg6) :
    W1 m ρ c (Proc.devRef .tc b) = m ((c : Thread nD τ).loc b) := by
  show StableHlo.after hostOps0 (W0 m ρ c) (Proc.devRef .tc b) = _
  rcases hb with rfl | rfl | rfl | rfl <;> after_results

/-- Nor does the first launch: the edge attributes, the gain, the offset and the edge list are as launched when it ends. -/
theorem arg_W2 (b : Ref sig .tc) (hb : b = main_arg1 ∨ b = main_arg4 ∨ b = main_arg5 ∨ b = main_arg6) :
    W2 m ρ c (Proc.devRef .tc b) = m ((c : Thread nD τ).loc b) := by
  refine Eq.trans ?_ (arg_W1 m ρ c b hb)
  rcases hb with rfl | rfl | rfl | rfl <;> exact W2_of_ne m ρ c _ (by decide)

/-! ## Between the first and the second launch -/

/-- The scatter line: the flattened array of all pairs, with the edge attributes added into the rows that the column
    of row numbers names. -/
theorem scatter_W9 : W9 m ρ c (Proc.devRef .tc main_v27)
    = Host.scatterAdd scatter_S1048576x64_S131072x1_S131072x64_1_0_0_1
        (shapeCast S1048576x64 (W2 m ρ c (Proc.devRef .tc main_v4)) shapeCasts_S64x128x128x64_S1048576x64)
        (W9 m ρ c (Proc.devRef .tc main_v26)) (W2 m ρ c (Proc.devRef .tc main_arg1)) := by
  show StableHlo.after (hostOps1_6 (F := F)) (StableHlo.after (hostOps1_5 (F := F)) (StableHlo.after (hostOps1_4 (F := F)) (StableHlo.after (hostOps1_3 (F := F)) (StableHlo.after (hostOps1_2 (F := F)) (StableHlo.after (hostOps1_1 (F := F)) (StableHlo.after (hostOps1 (F := F)) (W2 m ρ c))))))) (Proc.devRef .tc main_v27)
    = Host.scatterAdd scatter_S1048576x64_S131072x1_S131072x64_1_0_0_1
        (shapeCast S1048576x64 (W2 m ρ c (Proc.devRef .tc main_v4)) shapeCasts_S64x128x128x64_S1048576x64)
        (StableHlo.after (hostOps1_6 (F := F)) (StableHlo.after (hostOps1_5 (F := F)) (StableHlo.after (hostOps1_4 (F := F)) (StableHlo.after (hostOps1_3 (F := F)) (StableHlo.after (hostOps1_2 (F := F)) (StableHlo.after (hostOps1_1 (F := F)) (StableHlo.after (hostOps1 (F := F)) (W2 m ρ c))))))) (Proc.devRef .tc main_v26)) (W2 m ρ c (Proc.devRef .tc main_arg1))
  generalize W2 m ρ c = W
  set_option maxHeartbeats 8000000 in
  after_results_simp
  rfl

/-- The operations between the first and the second launch write none of the arguments. -/
theorem arg_W9 (b : Ref sig .tc) (hb : b = main_arg1 ∨ b = main_arg4 ∨ b = main_arg5 ∨ b = main_arg6) :
    W9 m ρ c (Proc.devRef .tc b) = m ((c : Thread nD τ).loc b) := by
  refine Eq.trans ?_ (arg_W2 m ρ c b hb)
  show StableHlo.after (hostOps1_6 (F := F)) (StableHlo.after (hostOps1_5 (F := F)) (StableHlo.after (hostOps1_4 (F := F)) (StableHlo.after (hostOps1_3 (F := F)) (StableHlo.after (hostOps1_2 (F := F)) (StableHlo.after (hostOps1_1 (F := F)) (StableHlo.after (hostOps1 (F := F)) (W2 m ρ c))))))) (Proc.devRef .tc b) = W2 m ρ c (Proc.devRef .tc b)
  generalize W2 m ρ c = W
  rcases hb with rfl | rfl | rfl | rfl <;> (set_option maxHeartbeats 4000000 in after_results_simp)

end Cert.KernelIdeal.Stages

end
-- ==== Proof.FlatIndex.lean ====
/-
  The row of X that every edge adds into, as both programs compute it from the edge list.

  The edge list has two rows of 131072 numbers: row 0 the source node of every edge, row 1 its destination node, both
  counted over all 64 graphs of 128 nodes. For an edge with source a and destination b the graph is g = ⌊a / 128⌋ and
  the nodes within the graph are u = a mod 128 and v = b mod 128; the pair (g, u, v) is row g · 16384 + u · 128 + v of
  the 1048576 rows, and a negative row number is wrapped by adding 1048576. Rounding down and the remainder with the
  sign of the divisor are spelt out on 32-bit words from the division rounded toward zero, exactly as the programs do.
-/
import Idealize.ShloMosaic.PureOps

noncomputable section

namespace Cert.PairNorm

open Idealize.ShloMosaic

/-- The edge list: row 0 holds the source nodes, row 1 the destination nodes, 131072 edges. -/
abbrev EdgeList : Shape := ⟨2, ![2, 131072]⟩
/-- One row of the edge list, still a matrix with a single row. -/
abbrev EdgeRow : Shape := ⟨2, ![1, 131072]⟩
/-- One number per edge. -/
abbrev EdgeVec : Shape := ⟨1, ![131072]⟩
/-- One number per edge, as a column. -/
abbrev EdgeCol : Shape := ⟨2, ![131072, 1]⟩
/-- A single number. -/
abbrev One : Shape := ⟨0, ![]⟩

section

variable (hall : One.BroadcastsInDim EdgeVec (![] : Fin 0 → Fin 1))

/-- A single value repeated along all 131072 edges. -/
def along {α : Type} (x : One.Idx → α) : EdgeVec.Idx → α := broadcastInDim EdgeVec ![] hall x

/-- The divisor 128, the number of nodes of a graph, converted to its own type. -/
def divisor : IVec One 32 := id (constantI One 32 128#32)

/-- The divisor as the remainder uses it: 1 if the divisor were 0, else the divisor. -/
def safeDivisor : IVec One 32 := select (cmpi .eq divisor (constantI One 32 0#32)) (constantI One 32 1#32) divisor

/-- Division by 128 rounded down: the quotient rounded toward zero, less 1 where the dividend and the divisor
    differ in sign and the division leaves a remainder. -/
def floorDiv128 (x : IVec EdgeVec 32) : IVec EdgeVec 32 :=
  select
    (andi (cmpi .ne (signi x) (along hall (signi divisor)))
      (cmpi .ne (Host.remsi x (along hall divisor)) (along hall (constantI One 32 0#32))))
    (subi (Host.divsi x (along hall divisor)) (along hall (constantI One 32 1#32)))
    (Host.divsi x (along hall divisor))

/-- The remainder of the division rounded toward zero: it has the sign of the dividend. -/
def truncRem128 (x : IVec EdgeVec 32) : IVec EdgeVec 32 := Host.remsi x (along hall safeDivisor)

/-- The remainder modulo 128 with the sign of the divisor: the remainder of the division rounded toward zero, plus the
    divisor where that remainder is not 0 and differs in sign from the divisor. -/
def rem128 (x : IVec EdgeVec 32) : IVec EdgeVec 32 :=
  select
    (andi
      (cmpi .ne (cmpi .slt (truncRem128 hall x) (along hall (constantI One 32 0#32)))
        (along hall (cmpi .slt safeDivisor (constantI One 32 0#32))))
      (cmpi .ne (truncRem128 hall x) (along hall (constantI One 32 0#32))))
    (addi (truncRem128 hall x) (along hall safeDivisor))
    (truncRem128 hall x)

/-- From graph g, source node u and destination node v of every edge, the row number g · 16384 + u · 128 + v. -/
def rowNumber (g u v : IVec EdgeVec 32) : IVec EdgeVec 32 :=
  addi (addi (muli g (along hall (constantI One 32 16384#32))) (muli u (along hall (constantI One 32 128#32)))) v

/-- A negative row number counts from the end: 1048576 is added to it. -/
def wrap (t : IVec EdgeVec 32) : IVec EdgeVec 32 :=
  select (cmpi .slt t (along hall (constantI One 32 0#32))) (addi t (along hall (constantI One 32 1048576#32))) t

end

/-- The row of X every edge adds into. With a = a6[0] the global source nodes and b = a6[1] the global destination
    nodes: the graph is g = ⌊a / 128⌋, the nodes within it are u = a mod 128 and v = b mod 128, and the row is
    g · 16384 + u · 128 + v, wrapped where negative, kept as a column. -/
def flatIndex (hrow0 : EdgeList.Slices ![0, 0] EdgeRow) (hrow1 : EdgeList.Slices ![1, 0] EdgeRow)
    (hflat : EdgeRow.ShapeCasts EdgeVec) (hall : One.BroadcastsInDim EdgeVec (![] : Fin 0 → Fin 1))
    (hcol : EdgeVec.BroadcastsInDim EdgeCol (![0] : Fin 1 → Fin 2)) (a6 : IVec EdgeList 32) : IVec EdgeCol 32 :=
  broadcastInDim EdgeCol ![0] hcol
    (wrap hall
      (rowNumber hall
        (floorDiv128 hall (shapeCast EdgeVec (extractStridedSlice EdgeRow ![0, 0] a6 hrow0) hflat))
        (rem128 hall (shapeCast EdgeVec (extractStridedSlice EdgeRow ![0, 0] a6 hrow0) hflat))
        (rem128 hall (shapeCast EdgeVec (extractStridedSlice EdgeRow ![1, 0] a6 hrow1) hflat))))

end Cert.PairNorm

end
-- ==== Proof.KernelIndex.lean ====
/-
  The kernel program's integer operations before its scatter compute the flat row index.

  The seven stretches of host operations from the slice of row 0 of the edge list up to the column of row numbers are,
  read one after the other, the composition `flatIndex` applied to the edge list: slice and flatten each row, divide
  by 128 rounding down, take the two remainders modulo 128, combine as g · 16384 + u · 128 + v, wrap the negative ones,
  and keep the result as a column. Every intermediate value is written once and read back unchanged, so the value
  left at the last name is the composition of the operations.
-/
import proofs.«103970_j66271345377493_1_alg».proof.Proof.Gen.KernelIdeal.Frame
import Idealize.ShloMosaic.Lib.StableHlo.Run
import proofs.«103970_j66271345377493_1_alg».proof.Proof.FlatIndex

noncomputable section

namespace Cert.KernelIdeal.Index

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- After the seven stretches, the column of row numbers is `flatIndex` of the edge list the stretches started from. -/
theorem index_eq (W : Valuation τ sig (Elt F)) : StableHlo.after (hostOps1_6 (F := F)) (StableHlo.after (hostOps1_5 (F := F)) (StableHlo.after (hostOps1_4 (F := F)) (StableHlo.after (hostOps1_3 (F := F)) (StableHlo.after (hostOps1_2 (F := F)) (StableHlo.after (hostOps1_1 (F := F)) (StableHlo.after (hostOps1 (F := F)) W)))))) (Proc.devRef .tc main_v26) = Cert.PairNorm.flatIndex slices_S2x131072_S1x131072_0_0 slices_S2x131072_S1x131072_1_0 shapeCasts_S1x131072_S131072 bcast_S_S131072 bcast_S131072_S131072x1_0 (W (Proc.devRef .tc main_arg6)) := by
  -- read every operation's result back in turn: what is left is the composed term, up to casts along equations
  -- between equal types, which are the identity
  after_results_simp
  rfl

end Cert.KernelIdeal.Index

end
-- ==== Proof.Spec.lean ====
/-
  What the two programs compute, written once as functions of whole arrays on the extended reals.

  There are 64 graphs of 128 nodes, and every node carries two 64-channel feature rows, one for its role as the
  source of a pair and one for its role as the destination. The array of all ordered pairs has, at graph g, source
  node u, destination node v and channel ch, the sum of the source row of u and the destination row of v: `pairSum`.
  Flattened to one row per pair (1048576 rows), a list of edges adds its attribute rows into the rows the edges
  name; call the result X. The normalisation needs, per channel, the sum of X over all rows and the sum of its
  squares: `colSum`, `colSumSq`. Its last step scales every row by one row of 64 numbers and shifts it by
  another: `affine`.
-/
import Idealize.ShloMosaic.PureOps.Ideal
import Idealize.ShloMosaic.Lib.ValueIdx

noncomputable section

namespace Cert.PairNorm

open Idealize.ShloMosaic Idealize.ShloMosaic.ValueIdx

/-- One row per ordered pair of nodes of one graph, 64 channels per row. -/
abbrev Rows : Shape := ⟨2, ![1048576, 64]⟩
/-- One row of 64 channels, kept as a matrix with a single row. -/
abbrev Row1 : Shape := ⟨2, ![1, 64]⟩
/-- The source rows: graph, node, a unit axis where the destination node will go, channel. -/
abbrev Src : Shape := ⟨4, ![64, 128, 1, 64]⟩
/-- The destination rows: graph, a unit axis where the source node will go, node, channel. -/
abbrev Dst : Shape := ⟨4, ![64, 1, 128, 64]⟩
/-- All ordered pairs: graph, source node, destination node, channel. -/
abbrev Pairs : Shape := ⟨4, ![64, 128, 128, 64]⟩

/-- The pair (g, u, v) at channel ch holds the source row of u plus the destination row of v. -/
def pairSum (s : Src.Idx → EReal) (d : Dst.Idx → EReal) : Pairs.Idx → EReal :=
  fun i => s (ix4 (i 0) (i 1) 0 (i 3)) + d (ix4 (i 0) 0 (i 2) (i 3))

/-- Per channel, the sum of X over all 1048576 rows, kept as a single row. -/
def colSum (X : Rows.Idx → EReal) : Row1.Idx → EReal :=
  fun j => ∑ r : Fin 1048576, X (ix2 r (j 1))

/-- Per channel, the sum of the squares of X over all 1048576 rows, kept as a single row. -/
def colSumSq (X : Rows.Idx → EReal) : Row1.Idx → EReal :=
  fun j => ∑ r : Fin 1048576, X (ix2 r (j 1)) * X (ix2 r (j 1))

/-- Every row of X times the row a, plus the row b, channel by channel. -/
def affine (X : Rows.Idx → EReal) (a b : Row1.Idx → EReal) : Rows.Idx → EReal :=
  fun i => X i * a (ix2 0 (i 1)) + b (ix2 0 (i 1))

end Cert.PairNorm

end
-- ==== Proof.PairSum.lean ====
/-
  The first kernel builds the array of all ordered pairs: at graph g, source node u, destination node v and channel
  ch it holds the source row of u plus the destination row of v. Each of the 64 grid points handles one graph: it
  reads that graph's block of the source rows and of the destination rows, broadcasts each along the axis the other
  one varies on, adds them, and writes the graph's block of the result. This module reads that off the generated
  frame: one element of what the body stores, then one point's block, then the whole array.
-/
import proofs.«103970_j66271345377493_1_alg».proof.Proof.Gen.KernelIdeal.Frame
import proofs.«103970_j66271345377493_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.PairSum

open Cert.KernelIdeal Cert.KernelIdeal.Gen Idealize.ShloMosaic Idealize.ShloMosaic.TcCoe Idealize.SL.Sem Cert.PairNorm
open Idealize.ShloMosaic.ValueIdx

variable (V : (c : Dev nD) → (b : Ref sig .tc) → Buf (Elt Ideal) ((c : Thread nD τ).loc b))

/-- ONE ELEMENT OF WHAT THE BODY STORES: at (0, u, v, ch) the source block at (0, u, 0, ch) plus the destination
    block at (0, 0, v, ch). -/
theorem pay_apply (x0 : Vec Ideal S1x128x1x64 .f32) (x1 : Vec Ideal S1x1x128x64 .f32) (j : S1x128x128x64.Idx) :
    k0_pay1 x0 x1 j = x0 (ix4 0 (j 1) 0 (j 3)) + x1 (ix4 0 0 (j 2) (j 3)) := by
  unfold k0_pay1
  refine (shapeCast_addUnit_apply ![128, 128, 64] _ _ j).trans ?_
  refine (addf_apply _ _ _).trans ?_
  have hs : broadcastTo S128x128x64 (shapeCast S128x1x64 x0 Facts₀.shapeCasts_S1x128x1x64_S128x1x64) Facts₀.broadcasts_S128x1x64_S128x128x64 (fun a => j a.succ)
      = x0 (ix4 0 (j 1) 0 (j 3)) := by
    refine (broadcastTo_apply _ _ _ (ix3 (j 1) 0 (j 3)) fun a => ?_).trans ?_
    · match a with
      | ⟨0, _⟩ => rfl
      | ⟨1, _⟩ => rfl
      | ⟨2, _⟩ => rfl
    · refine (shapeCast_dropUnit_apply ![128, 1, 64] _ _ _).trans ?_
      refine congrArg x0 (funext fun a => ?_)
      match a with
      | ⟨0, _⟩ => rfl
      | ⟨1, _⟩ => rfl
      | ⟨2, _⟩ => rfl
      | ⟨3, _⟩ => rfl
  have hd : broadcastTo S128x128x64 (shapeCast S1x128x64 x1 Facts₀.shapeCasts_S1x1x128x64_S1x128x64) Facts₀.broadcasts_S1x128x64_S128x128x64 (fun a => j a.succ)
      = x1 (ix4 0 0 (j 2) (j 3)) := by
    refine (broadcastTo_apply _ _ _ (ix3 0 (j 2) (j 3)) fun a => ?_).trans ?_
    · match a with
      | ⟨0, _⟩ => rfl
      | ⟨1, _⟩ => rfl
      | ⟨2, _⟩ => rfl
    · refine (shapeCast_dropUnit_apply ![1, 128, 64] _ _ _).trans ?_
      refine congrArg x1 (funext fun a => ?_)
      match a with
      | ⟨0, _⟩ => rfl
      | ⟨1, _⟩ => rfl
      | ⟨2, _⟩ => rfl
      | ⟨3, _⟩ => rfl
  exact congrArg₂ (· + ·) hs hd

theorem hz4 : (![0, 0, 0, 0] : Fin 4 → Nat) = fun _ => 0 := funext fun a => by fin_cases a <;> rfl

/-- The three index maps, decided over the 64 grid points: every window's block index is (g, 0, 0, 0) at point g. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem flushed_eq (c : Dev nD) (t : Fin cfg0.N) :
    (dat0 (F := Ideal) V c).flushed 2 t = ((cfg0.win 2).blk t).view.read (Elt Ideal) (pairSum (V c main_v2) (V c main_v3)) := by
  show (cfg0.win 2).cut (grid0.coords t) ((dat0 V c).after 2 t) = _
  rw [after0_2]
  unfold out0_2
  rw [View.canon_unit_zero hz4]
  simp only [View.ld_unit_zero (S := S1x128x1x64) hz4, View.ld_unit_zero (S := S1x1x128x64) hz4]
  funext j
  show k0_pay1 (iblk0 V c 0 t) (iblk0 V c 1 t) j = pairSum (V c main_v2) (V c main_v3) (((cfg0.win 2).blk t).view.emb j)
  refine (pay_apply _ _ j).trans ?_
  obtain ⟨a0, a1, a2, a3, b0, b1, b2, b3, o0, o1, o2, o3⟩ := idx_facts t
  have hj0 : (j 0).val < 1 := (j 0).isLt
  have hj1 : (j 1).val < 128 := (j 1).isLt
  have hj2 : (j 2).val < 128 := (j 2).isLt
  have hj3 : (j 3).val < 64 := (j 3).isLt
  have key : ∀ (S : Src.Idx → EReal) (D : Dst.Idx → EReal),
      S (((cfg0.win 0).blk t).view.emb (ix4 0 (j 1) 0 (j 3))) + D (((cfg0.win 1).blk t).view.emb (ix4 0 0 (j 2) (j 3)))
        = pairSum S D (((cfg0.win 2).blk t).view.emb j) := by
    intro S D
    unfold pairSum
    refine congrArg₂ (· + ·) (congrArg S ?_) (congrArg D ?_)
    · funext a; apply Fin.ext
      match a with
      | ⟨0, _⟩ => show win0_0.index t (0 : Fin 4) * 1 + 1 * 0 = win0_2.index t (0 : Fin 4) * 1 + 1 * (j 0).val; omega
      | ⟨1, _⟩ => show win0_0.index t (1 : Fin 4) * 128 + 1 * (j 1).val = win0_2.index t (1 : Fin 4) * 128 + 1 * (j 1).val; omega
      | ⟨2, _⟩ => show win0_0.index t (2 : Fin 4) * 1 + 1 * 0 = 0; omega
      | ⟨3, _⟩ => show win0_0.index t (3 : Fin 4) * 64 + 1 * (j 3).val = win0_2.index t (3 : Fin 4) * 64 + 1 * (j 3).val; omega
    · funext a; apply Fin.ext
      match a with
      | ⟨0, _⟩ => show win0_1.index t (0 : Fin 4) * 1 + 1 * 0 = win0_2.index t (0 : Fin 4) * 1 + 1 * (j 0).val; omega
      | ⟨1, _⟩ => show win0_1.index t (1 : Fin 4) * 1 + 1 * 0 = 0; omega
      | ⟨2, _⟩ => show win0_1.index t (2 : Fin 4) * 128 + 1 * (j 2).val = win0_2.index t (2 : Fin 4) * 128 + 1 * (j 2).val; omega
      | ⟨3, _⟩ => show win0_1.index t (3 : Fin 4) * 64 + 1 * (j 3).val = win0_2.index t (3 : Fin 4) * 64 + 1 * (j 3).val; omega
  exact key (V c main_v2) (V c main_v3)

/-- An index of the array is in point t's block iff each coordinate is in the block's range on its axis. -/
theorem mem_blk (t : Fin cfg0.N) (i : S64x128x128x64.Idx) :
    i ∈ ((cfg0.win 2).blk t).view.set ↔ ∀ a : Fin 4, win0_2.index t a * S1x128x128x64.size a ≤ (i a).val
      ∧ (i a).val < win0_2.index t a * S1x128x128x64.size a + S1x128x128x64.size a := by
  show i ∈ ((View.whole main_v4).slice (win0_2.rect t)).set ↔ _
  rw [View.set_slice_whole, Rect.mem_set_unit]
  exact Iff.rfl

/-- THE BLOCKS COVER THE ARRAY: the index (g, u, v, ch) is in the block of point g. -/
theorem cover (i : S64x128x128x64.Idx) :
    ∃ t : Fin cfg0.N, (cfg0.win 2).flush t = true ∧ i ∈ ((cfg0.win 2).blk t).view.set := by
  have hi0 : (i 0).val < 64 := (i 0).isLt
  have hi1 : (i 1).val < 128 := (i 1).isLt
  have hi2 : (i 2).val < 128 := (i 2).isLt
  have hi3 : (i 3).val < 64 := (i 3).isLt
  refine ⟨⟨(i 0).val, lt_of_lt_of_eq hi0 N_0.symm⟩, flush0_2 _, ?_⟩
  rw [mem_blk]
  obtain ⟨-, -, -, -, -, -, -, -, o0, o1, o2, o3⟩ := idx_facts ⟨(i 0).val, lt_of_lt_of_eq hi0 N_0.symm⟩
  have o0' : win0_2.index ⟨(i 0).val, lt_of_lt_of_eq hi0 N_0.symm⟩ (0 : Fin 4) = (i 0).val := o0
  intro a
  match a with
  | ⟨0, _⟩ => show win0_2.index _ (0 : Fin 4) * 1 ≤ (i 0).val ∧ (i 0).val < win0_2.index _ (0 : Fin 4) * 1 + 1; omega
  | ⟨1, _⟩ => show win0_2.index _ (1 : Fin 4) * 128 ≤ (i 1).val ∧ (i 1).val < win0_2.index _ (1 : Fin 4) * 128 + 128; omega
  | ⟨2, _⟩ => show win0_2.index _ (2 : Fin 4) * 128 ≤ (i 2).val ∧ (i 2).val < win0_2.index _ (2 : Fin 4) * 128 + 128; omega
  | ⟨3, _⟩ => show win0_2.index _ (3 : Fin 4) * 64 ≤ (i 3).val ∧ (i 3).val < win0_2.index _ (3 : Fin 4) * 64 + 64; omega

/-- THE ARRAY AFTER THE REGION: at (g, u, v, ch) the source row of node u of graph g plus the destination row of
    node v of graph g, at channel ch. -/
theorem arr (c : Dev nD) : (dat0 (F := Ideal) V c).arrAt 2 cfg0.N = pairSum (V c main_v2) (V c main_v3) :=
  (dat0 (F := Ideal) V c).arrAt_eq_of_cover 2 _ (fun t _ => flushed_eq V c t) cover

/-- THE SAME ARRAY AS THE HOST SPELLS IT: each operand broadcast along its unit axis to all ordered pairs, then added. -/
theorem host_eq (s : FVec Ideal ⟨4, ![64,128,1,64]⟩ .f32) (d : FVec Ideal ⟨4, ![64,1,128,64]⟩ .f32)
    (h2 : (⟨4, ![64,128,1,64]⟩ : Shape).BroadcastsInDim ⟨4, ![64,128,128,64]⟩ ![0,1,2,3])
    (h3 : (⟨4, ![64,1,128,64]⟩ : Shape).BroadcastsInDim ⟨4, ![64,128,128,64]⟩ ![0,1,2,3]) :
    addf (broadcastInDim ⟨4, ![64,128,128,64]⟩ ![0,1,2,3] h2 s) (broadcastInDim ⟨4, ![64,128,128,64]⟩ ![0,1,2,3] h3 d) = pairSum s d := by
  funext i
  refine (addf_apply _ _ i).trans ?_
  unfold pairSum
  refine congrArg₂ (· + ·) ?_ ?_
  · refine broadcastInDim_apply _ h2 s i (ix4 (i 0) (i 1) 0 (i 3)) fun a => ?_
    match a with
    | ⟨0, _⟩ => rfl
    | ⟨1, _⟩ => rfl
    | ⟨2, _⟩ => rfl
    | ⟨3, _⟩ => rfl
  · refine broadcastInDim_apply _ h3 d i (ix4 (i 0) 0 (i 2) (i 3)) fun a => ?_
    match a with
    | ⟨0, _⟩ => rfl
    | ⟨1, _⟩ => rfl
    | ⟨2, _⟩ => rfl
    | ⟨3, _⟩ => rfl

end Cert.KernelIdeal.PairSum

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.ColSums.lean ====
/-
  The statistics pass over the 1048576 rows of X, read as values on the extended reals. The grid has 64 points; point t
  is handed rows 16384·t … 16384·t + 16383 of X (all 64 channels) and two rows of 64 running totals that stay in place from
  point to point. The first point stores zeros in both, and every point then adds, channel by channel, the sum of its block's
  column to the first row and the sum of the squares of its block's column to the second. So after point n the first row
  holds the column sums over the first n + 1 blocks (by induction on n; addition on the extended reals is a commutative
  monoid, so nothing has to be finite), and after the last point, the only one that writes the rows back, the two result
  arrays hold the column sums of X and of its squares: a sum over 64 blocks of 16384 rows is the sum over all rows.
-/
import proofs.«103970_j66271345377493_1_alg».proof.Proof.Gen.KernelIdeal.Frame
import proofs.«103970_j66271345377493_1_alg».proof.Proof.Spec
import proofs.«103970_j66271345377493_1_alg».proof.Proof.LibBlockSums
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic
noncomputable section
namespace Cert.KernelIdeal.ColSums
open Cert.KernelIdeal Cert.KernelIdeal.Gen Idealize.ShloMosaic Idealize.ShloMosaic.TcCoe Idealize.SL.Sem Cert.PairNorm
variable (V : (c : Dev nD) → (b : Ref sig .tc) → Buf (Elt Ideal) ((c : Thread nD τ).loc b))

theorem hz : (![0, 0] : Fin 2 → Nat) = fun _ => 0 := funext fun a => by fin_cases a <;> rfl

/-- After a point that is not the first, the first output's buffer holds the running sum it held plus the column sums of the
    point's block. -/
theorem sum_B (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S16384x64 .f32) (xo1 xo2 : Vec Ideal S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S16384x64) hz, View.ld_unit_zero (S := S1x64) hz]

/-- Likewise the second output's buffer: what it held plus the column sums of the squares of the point's block. -/
theorem sumsq_B (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S16384x64 .f32) (xo1 xo2 : Vec Ideal S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S16384x64) hz, View.ld_unit_zero (S := S1x64) hz]

/-- After the first point the first output's buffer holds the zero row plus the column sums of the first block: the zero row is
    stored first and read back. -/
theorem sum_A (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S16384x64 .f32) :
    out1_A_1 c i a1 h1 a2 h2 a3 h3 hc x = k1_pay4 x (k1_pay1 (F := Ideal)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S16384x64) hz]

/-- Likewise the second output's buffer after the first point: the zero row plus the column sums of the squares. -/
theorem sumsq_A (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S16384x64 .f32) :
    out1_A_2 c i a1 h1 a2 h2 a3 h3 hc x = k1_pay5 x (k1_pay2 (F := Ideal)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S16384x64) hz]

open Idealize.ShloMosaic.ValueIdx

/-- The reduction over the rows inserts the row coordinate in front of the channel. -/
theorem lift_row (ch : Fin 64) (r : Fin 16384) :
    reduces_S16384x64_S64.lift (ix1 ch) r = ix2 r ch :=
  funext fun a => Fin.ext (by match a with | ⟨0, _⟩ => rfl | ⟨1, _⟩ => rfl)

/-- The first payload at a channel: what was held there plus the sum of the block's column. -/
theorem pay4_apply (x : Vec Ideal S16384x64 .f32) (acc : Vec Ideal S1x64 .f32) (u : Fin 1) (ch : Fin 64) :
    k1_pay4 x acc (ix2 u ch) = acc (ix2 u ch) + ∑ r : Fin 16384, x (ix2 r ch) := by
  unfold k1_pay4 k1_pay3
  simp only [shapeCast_self, addf, Ideal.addf_def]
  refine congrArg (acc (ix2 u ch) + ·) ?_
  refine (shapeCast_a_1a_apply _ shapeCasts_S64_S1x64 u ch).trans ?_
  refine (Ideal.multiReduction_add_single x _ reduces_S16384x64_S64 _ _ (ix1 ch)).trans ?_
  exact Finset.sum_congr rfl fun r _ => congrArg x (lift_row ch r)

/-- The second payload at a channel: what was held there plus the sum of the squares of the block's column. -/
theorem pay5_apply (x : Vec Ideal S16384x64 .f32) (acc : Vec Ideal S1x64 .f32) (u : Fin 1) (ch : Fin 64) :
    k1_pay5 x acc (ix2 u ch) = acc (ix2 u ch) + ∑ r : Fin 16384, x (ix2 r ch) * x (ix2 r ch) := by
  unfold k1_pay5 k1_pay3
  simp only [shapeCast_self, addf, Ideal.addf_def]
  refine congrArg (acc (ix2 u ch) + ·) ?_
  refine (shapeCast_a_1a_apply _ shapeCasts_S64_S1x64 u ch).trans ?_
  refine (Ideal.multiReduction_add_single _ _ reduces_S16384x64_S64 _ _ (ix1 ch)).trans ?_
  refine Finset.sum_congr rfl fun r _ => ?_
  rw [lift_row ch r]
  rfl

/-- The rows stored at the first point are zero. -/
theorem pay1_apply (j : S1x64.Idx) : k1_pay1 (F := Ideal) j = 0 := by
  unfold k1_pay1
  exact Ideal.ofBits_zero_f32

theorem pay2_apply (j : S1x64.Idx) : k1_pay2 (F := Ideal) j = 0 := by
  unfold k1_pay2
  exact Ideal.ofBits_zero_f32

/-- Row r of block s, as a row of the whole array (reduced modulo the number of rows so that it is defined at every s). -/
def blockRow (s : ℕ) (r : Fin 16384) : Fin 1048576 := ⟨(16384 * s + r.val) % 1048576, Nat.mod_lt _ (by norm_num)⟩

/-- The array X as the region finds it, as a function on the extended reals. -/
abbrev X0 (c : Dev nD) : Rows.Idx → EReal := V c main_v27

/-- The block of X handed to point t, as a 16384 × 64 matrix. -/
abbrev blk (c : Dev nD) (t : Fin cfg1.N) : Vec Ideal S16384x64 .f32 := iblk1 V c 0 t

/-- The input window's block index at point t is (t, 0): decided once over the grid. -/
theorem index_facts : ∀ t : Fin cfg1.N, win1_0.index t 0 = t.val ∧ win1_0.index t 1 = 0 :=
  (by decide +kernel : ∀ t : Fin grid1.N, win1_0.index t 0 = t.val ∧ win1_0.index t 1 = 0)

/-- The input block at point t holds rows 16384·t … 16384·t + 16383 of the array, all channels. -/
theorem block_apply (c : Dev nD) (t : Fin cfg1.N) (r : Fin 16384) (ch : Fin 64) :
    blk V c t (ix2 r ch) = X0 V c (ix2 (blockRow t.val r) ch) := by
  have hi := index_facts t
  have hN : t.val < 64 := lt_of_lt_of_eq t.isLt (show cfg1.N = 64 from N_1)
  unfold blk X0 iblk1
  rw [View.read_apply]
  show V c main_v27 _ = V c main_v27 _
  refine congrArg (V c main_v27) ?_
  funext a
  apply Fin.ext
  match a with
  | ⟨0, _⟩ =>
    show win1_0.index t 0 * 16384 + 1 * r.val = (16384 * t.val + r.val) % 1048576
    rw [hi.1]; have := r.isLt; omega
  | ⟨1, _⟩ =>
    show win1_0.index t 1 * 64 + 1 * ch.val = ch.val
    rw [hi.2]; omega

/-- The column sums of the first n blocks of X. -/
def partSum (X : Rows.Idx → EReal) (n : ℕ) (ch : Fin 64) : EReal :=
  ∑ s ∈ Finset.range n, ∑ r : Fin 16384, X (ix2 (blockRow s r) ch)

/-- The column sums of the squares of the first n blocks of X. -/
def partSumSq (X : Rows.Idx → EReal) (n : ℕ) (ch : Fin 64) : EReal :=
  ∑ s ∈ Finset.range n, ∑ r : Fin 16384, X (ix2 (blockRow s r) ch) * X (ix2 (blockRow s r) ch)

theorem partSum_succ (X : Rows.Idx → EReal) (n : ℕ) (ch : Fin 64) :
    partSum X (n + 1) ch = partSum X n ch + ∑ r : Fin 16384, X (ix2 (blockRow n r) ch) :=
  Finset.sum_range_succ _ n

theorem partSumSq_succ (X : Rows.Idx → EReal) (n : ℕ) (ch : Fin 64) :
    partSumSq X (n + 1) ch = partSumSq X n ch + ∑ r : Fin 16384, X (ix2 (blockRow n r) ch) * X (ix2 (blockRow n r) ch) :=
  Finset.sum_range_succ _ n

theorem partSum_zero (X : Rows.Idx → EReal) (ch : Fin 64) : partSum X 0 ch = 0 := Finset.sum_range_zero _
theorem partSumSq_zero (X : Rows.Idx → EReal) (ch : Fin 64) : partSumSq X 0 ch = 0 := Finset.sum_range_zero _

/-- All 64 blocks together are all the rows. -/
theorem partSum_all (X : Rows.Idx → EReal) (ch : Fin 64) : partSum X 64 ch = ∑ r : Fin 1048576, X (ix2 r ch) := by
  unfold partSum
  rw [Finset.sum_range (fun s => ∑ r : Fin 16384, X (ix2 (blockRow s r) ch))]
  exact (BlockSums.sum_blocks (m := 64) (n := 16384) (by norm_num) (fun i j => blockRow i.val j)
    (fun i j => by
      show (16384 * i.val + j.val) % 1048576 = i.val * 16384 + j.val
      have := i.isLt; have := j.isLt; omega) (fun r => X (ix2 r ch))).symm

theorem partSumSq_all (X : Rows.Idx → EReal) (ch : Fin 64) :
    partSumSq X 64 ch = ∑ r : Fin 1048576, X (ix2 r ch) * X (ix2 r ch) := by
  unfold partSumSq
  rw [Finset.sum_range (fun s => ∑ r : Fin 16384, X (ix2 (blockRow s r) ch) * X (ix2 (blockRow s r) ch))]
  exact (BlockSums.sum_blocks (m := 64) (n := 16384) (by norm_num) (fun i j => blockRow i.val j)
    (fun i j => by
      show (16384 * i.val + j.val) % 1048576 = i.val * 16384 + j.val
      have := i.isLt; have := j.isLt; omega) (fun r => X (ix2 r ch) * X (ix2 r ch))).symm

/-- The column sums at a channel, with the index written by its coordinates. -/
theorem colSum_apply (X : Rows.Idx → EReal) (u : Fin 1) (ch : Fin 64) :
    colSum X (ix2 u ch) = ∑ r : Fin 1048576, X (ix2 r ch) := by
  unfold colSum
  rfl

theorem colSumSq_apply (X : Rows.Idx → EReal) (u : Fin 1) (ch : Fin 64) :
    colSumSq X (ix2 u ch) = ∑ r : Fin 1048576, X (ix2 r ch) * X (ix2 r ch) := by
  unfold colSumSq
  rfl

/-- What the first point leaves in the first row, at a channel: the sum of its block's column. -/
theorem first_sum (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S16384x64 .f32) (u : Fin 1) (ch : Fin 64) :
    out1_A_1 c i a1 h1 a2 h2 a3 h3 hc x (ix2 u ch) = ∑ r : Fin 16384, x (ix2 r ch) := by
  rw [sum_A, pay4_apply, pay1_apply, zero_add]

theorem first_sumsq (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S16384x64 .f32) (u : Fin 1) (ch : Fin 64) :
    out1_A_2 c i a1 h1 a2 h2 a3 h3 hc x (ix2 u ch) = ∑ r : Fin 16384, x (ix2 r ch) * x (ix2 r ch) := by
  rw [sumsq_A, pay5_apply, pay2_apply, zero_add]

/-- What a later point leaves in the first row, at a channel: what was there plus the sum of its block's column. -/
theorem next_sum (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S16384x64 .f32) (xo1 xo2 : Vec Ideal S1x64 .f32) (u : Fin 1) (ch : Fin 64) :
    out1_B_1 c i a1 h1 a2 h2 a3 h3 hc x xo1 xo2 (ix2 u ch) = xo1 (ix2 u ch) + ∑ r : Fin 16384, x (ix2 r ch) := by
  rw [sum_B, pay4_apply]

theorem next_sumsq (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S16384x64 .f32) (xo1 xo2 : Vec Ideal S1x64 .f32) (u : Fin 1) (ch : Fin 64) :
    out1_B_2 c i a1 h1 a2 h2 a3 h3 hc x xo1 xo2 (ix2 u ch)
      = xo2 (ix2 u ch) + ∑ r : Fin 16384, x (ix2 r ch) * x (ix2 r ch) := by
  rw [sumsq_B, pay5_apply]

/-- The column sums of the block at point t are those of rows 16384·t … 16384·t + 16383 of X. -/
theorem block_sum (c : Dev nD) (t : Fin cfg1.N) (ch : Fin 64) :
    ∑ r : Fin 16384, blk V c t (ix2 r ch) = ∑ r : Fin 16384, X0 V c (ix2 (blockRow t.val r) ch) :=
  Finset.sum_congr rfl fun r _ => block_apply V c t r ch

theorem block_sumsq (c : Dev nD) (t : Fin cfg1.N) (ch : Fin 64) :
    ∑ r : Fin 16384, blk V c t (ix2 r ch) * blk V c t (ix2 r ch)
      = ∑ r : Fin 16384, X0 V c (ix2 (blockRow t.val r) ch) * X0 V c (ix2 (blockRow t.val r) ch) :=
  Finset.sum_congr rfl fun r _ => by rw [block_apply V c t r ch]

/-- THE INVARIANT. After point n the two rows hold the column sums, and the column sums of the squares, of the first n + 1
    blocks of X: by induction on the point. -/
theorem outs_eq (c : Dev nD) : ∀ (n : ℕ) (hn : n < cfg1.N) (u : Fin 1) (ch : Fin 64),
    (outsAt1 V c n hn).1 (ix2 u ch) = partSum (X0 V c) (n + 1) ch
    ∧ (outsAt1 V c n hn).2 (ix2 u ch) = partSumSq (X0 V c) (n + 1) ch
  | 0, hn, u, ch => by
    have e : outsAt1 V c 0 hn = _ := outsAt1_A V c ⟨0, hn⟩ rfl
    rw [e]
    dsimp only
    constructor
    · refine (first_sum c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) _ (blk V c ⟨0, hn⟩) u ch).trans ?_
      rw [partSum_succ, partSum_zero, zero_add]
      exact block_sum V c ⟨0, hn⟩ ch
    · refine (first_sumsq c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) _ (blk V c ⟨0, hn⟩) u ch).trans ?_
      rw [partSumSq_succ, partSumSq_zero, zero_add]
      exact block_sumsq V c ⟨0, hn⟩ ch
  | n + 1, hn, u, ch => by
    have hN : cfg1.N = 64 := N_1
    have hB : ¬(⟨n + 1, hn⟩ : Fin cfg1.N).val % 64 = 0 := by dsimp only; omega
    have e : outsAt1 V c (n + 1) hn = _ := outsAt1_B V c ⟨n + 1, hn⟩ hB
    have ih := outs_eq c n (Nat.lt_of_succ_lt hn) u ch
    rw [e]
    dsimp only
    constructor
    · refine (next_sum c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) _ (blk V c ⟨n + 1, hn⟩) _ _ u ch).trans ?_
      rw [partSum_succ (X0 V c) (n + 1) ch, ← ih.1]
      exact congrArg (_ + ·) (block_sum V c ⟨n + 1, hn⟩ ch)
    · refine (next_sumsq c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) _ (blk V c ⟨n + 1, hn⟩) _ _ u ch).trans ?_
      rw [partSumSq_succ (X0 V c) (n + 1) ch, ← ih.2]
      exact congrArg (_ + ·) (block_sumsq V c ⟨n + 1, hn⟩ ch)

/-- So after the last point the rows hold the column sums of X and of its squares. (The point stays a variable: only its
    value is used.) -/
theorem outs_last (c : Dev nD) (n : ℕ) (hn : n < cfg1.N) (h63 : n = 63) (j : S1x64.Idx) :
    (outsAt1 V c n hn).1 j = colSum (X0 V c) j ∧ (outsAt1 V c n hn).2 j = colSumSq (X0 V c) j := by
  obtain ⟨u, ch, rfl⟩ : ∃ (u : Fin 1) (ch : Fin 64), j = ix2 u ch := ⟨j 0, j 1, eq_ix2 j⟩
  have h := outs_eq V c n hn u ch
  have e64 : n + 1 = 64 := by omega
  rw [e64] at h
  rw [colSum_apply, colSumSq_apply, ← partSum_all, ← partSumSq_all]
  exact h

/-- The output windows' one block is block (0, 0), of the arrays' own extents, at every point: decided once over the grid. -/
theorem out_index_facts : ∀ t : Fin cfg1.N, win1_1.index t 0 = 0 ∧ win1_1.index t 1 = 0
    ∧ win1_2.index t 0 = 0 ∧ win1_2.index t 1 = 0
    ∧ win1_1.xsize (grid1.coords t) 0 = 1 ∧ win1_1.xsize (grid1.coords t) 1 = 64
    ∧ win1_2.xsize (grid1.coords t) 0 = 1 ∧ win1_2.xsize (grid1.coords t) 1 = 64 :=
  (by decide +kernel : ∀ t : Fin grid1.N, _)

/-- The last point. -/
abbrev lastPt : Fin cfg1.N := ⟨63, by rw [show cfg1.N = 64 from N_1]; decide⟩

/-- The input array is not written. -/
theorem arr_in (c : Dev nD) : (dat1 (F := Ideal) V c).arrAt 0 cfg1.N = V c main_v27 :=
  ((dat1 (F := Ideal) V c).arrAt_in 0 rfl _).trans (A_eq1 V c 0)

/-- Reading the first result's block out of an array: the array at the block's embedding of the index. -/
theorem read_out1 (t : Fin cfg1.N) (G : Row1.Idx → EReal) (j : S1x64.Idx) :
    ((cfg1.win 1).blk t).view.read (Elt Ideal) G j = G (((cfg1.win 1).blk t).view.emb j) := rfl

theorem read_out2 (t : Fin cfg1.N) (G : Row1.Idx → EReal) (j : S1x64.Idx) :
    ((cfg1.win 2).blk t).view.read (Elt Ideal) G j = G (((cfg1.win 2).blk t).view.emb j) := rfl

/-- The result windows are not clipped: what is written back is the whole row. -/
theorem cut_out1 (t : Fin cfg1.N) (f : Vec Ideal S1x64 .f32) (j : S1x64.Idx) :
    (cfg1.win 1).cut (grid1.coords t) f j = f j := rfl

theorem cut_out2 (t : Fin cfg1.N) (f : Vec Ideal S1x64 .f32) (j : S1x64.Idx) :
    (cfg1.win 2).cut (grid1.coords t) f j = f j := rfl

/-- The one block of a result window sits at the origin of its array: an index of the block is the same index of the array. -/
theorem emb_out1 (t : Fin cfg1.N) (j : S1x64.Idx) : ((cfg1.win 1).blk t).view.emb j = j := by
  obtain ⟨e0, e1, -, -, -, -, -, -⟩ := out_index_facts t
  funext a
  apply Fin.ext
  match a with
  | ⟨0, _⟩ => show win1_1.index t 0 * 1 + 1 * (j 0).val = (j 0).val; rw [e0]; omega
  | ⟨1, _⟩ => show win1_1.index t 1 * 64 + 1 * (j 1).val = (j 1).val; rw [e1]; omega

theorem emb_out2 (t : Fin cfg1.N) (j : S1x64.Idx) : ((cfg1.win 2).blk t).view.emb j = j := by
  obtain ⟨-, -, e0, e1, -, -, -, -⟩ := out_index_facts t
  funext a
  apply Fin.ext
  match a with
  | ⟨0, _⟩ => show win1_2.index t 0 * 1 + 1 * (j 0).val = (j 0).val; rw [e0]; omega
  | ⟨1, _⟩ => show win1_2.index t 1 * 64 + 1 * (j 1).val = (j 1).val; rw [e1]; omega

/-- The one write-back of the first result, at the last point, writes the column sums of X: the block is the whole array. -/
theorem flushed_sum (c : Dev nD) (t : Fin cfg1.N) (hf : (cfg1.win 1).flush t = true) :
    (dat1 (F := Ideal) V c).flushed 1 t = ((cfg1.win 1).blk t).view.read (Elt Ideal) (colSum (V c main_v27)) := by
  have hN : t.val < 64 := lt_of_lt_of_eq t.isLt (show cfg1.N = 64 from N_1)
  have h63 : t.val = 63 := by have := (flush1_1 t).mp hf; omega
  show (cfg1.win 1).cut (grid1.coords t) ((dat1 V c).after 1 t) = _
  rw [after1_1]
  funext j
  refine (cut_out1 t _ j).trans ?_
  refine Eq.trans ?_ (read_out1 t (colSum (V c main_v27)) j).symm
  rw [emb_out1 t j]
  exact (outs_last V c t.val t.isLt h63 j).1

/-- Likewise the second result: the column sums of the squares. -/
theorem flushed_sumsq (c : Dev nD) (t : Fin cfg1.N) (hf : (cfg1.win 2).flush t = true) :
    (dat1 (F := Ideal) V c).flushed 2 t = ((cfg1.win 2).blk t).view.read (Elt Ideal) (colSumSq (V c main_v27)) := by
  have hN : t.val < 64 := lt_of_lt_of_eq t.isLt (show cfg1.N = 64 from N_1)
  have h63 : t.val = 63 := by have := (flush1_2 t).mp hf; omega
  show (cfg1.win 2).cut (grid1.coords t) ((dat1 V c).after 2 t) = _
  rw [after1_2]
  funext j
  refine (cut_out2 t _ j).trans ?_
  refine Eq.trans ?_ (read_out2 t (colSumSq (V c main_v27)) j).symm
  rw [emb_out2 t j]
  exact (outs_last V c t.val t.isLt h63 j).2

/-- Every index of the first result array lies in the one block of its window, whatever the point. -/
theorem mem_blk1 (t : Fin cfg1.N) (i : S1x64.Idx) : i ∈ ((cfg1.win 1).blk t).view.set := by
  obtain ⟨e0, e1, -, -, s0, s1, -, -⟩ := out_index_facts t
  show i ∈ ((View.whole main_v28_0).slice (win1_1.rect t)).set
  rw [View.set_slice_whole, Rect.mem_set_unit]
  intro a
  have h0 : (i 0 : Nat) < 1 := (i 0).isLt
  have h1 : (i 1 : Nat) < 64 := (i 1).isLt
  match a with
  | ⟨0, _⟩ =>
    show win1_1.index t 0 * win1_1.size 0 ≤ (i 0 : Nat) ∧ (i 0 : Nat) < win1_1.index t 0 * win1_1.size 0 + win1_1.xsize (grid1.coords t) 0
    rw [e0, s0]; omega
  | ⟨1, _⟩ =>
    show win1_1.index t 1 * win1_1.size 1 ≤ (i 1 : Nat) ∧ (i 1 : Nat) < win1_1.index t 1 * win1_1.size 1 + win1_1.xsize (grid1.coords t) 1
    rw [e1, s1]; omega

theorem mem_blk2 (t : Fin cfg1.N) (i : S1x64.Idx) : i ∈ ((cfg1.win 2).blk t).view.set := by
  obtain ⟨-, -, e0, e1, -, -, s0, s1⟩ := out_index_facts t
  show i ∈ ((View.whole main_v28_1).slice (win1_2.rect t)).set
  rw [View.set_slice_whole, Rect.mem_set_unit]
  intro a
  have h0 : (i 0 : Nat) < 1 := (i 0).isLt
  have h1 : (i 1 : Nat) < 64 := (i 1).isLt
  match a with
  | ⟨0, _⟩ =>
    show win1_2.index t 0 * win1_2.size 0 ≤ (i 0 : Nat) ∧ (i 0 : Nat) < win1_2.index t 0 * win1_2.size 0 + win1_2.xsize (grid1.coords t) 0
    rw [e0, s0]; omega
  | ⟨1, _⟩ =>
    show win1_2.index t 1 * win1_2.size 1 ≤ (i 1 : Nat) ∧ (i 1 : Nat) < win1_2.index t 1 * win1_2.size 1 + win1_2.xsize (grid1.coords t) 1
    rw [e1, s1]; omega

/-- The last point writes both results back. -/
theorem flush_last1 : (cfg1.win 1).flush lastPt = true := (flush1_1 lastPt).mpr rfl
theorem flush_last2 : (cfg1.win 2).flush lastPt = true := (flush1_2 lastPt).mpr rfl

/-- The first result array ends holding the column sums of X: the last point's block covers it. -/
theorem arr_sum (c : Dev nD) : (dat1 (F := Ideal) V c).arrAt 1 cfg1.N = colSum (V c main_v27) := by
  refine (dat1 (F := Ideal) V c).arrAt_eq_of_cover 1 (colSum (V c main_v27)) (flushed_sum V c) ?_
  intro i
  exact ⟨lastPt, flush_last1, mem_blk1 lastPt i⟩

/-- The second result array ends holding the column sums of the squares of X. -/
theorem arr_sumsq (c : Dev nD) : (dat1 (F := Ideal) V c).arrAt 2 cfg1.N = colSumSq (V c main_v27) := by
  refine (dat1 (F := Ideal) V c).arrAt_eq_of_cover 2 (colSumSq (V c main_v27)) (flushed_sumsq V c) ?_
  intro i
  exact ⟨lastPt, flush_last2, mem_blk2 lastPt i⟩

end Cert.KernelIdeal.ColSums
end
-- ==== Proof.Affine.lean ====
/-
  The last kernel of the run scales and shifts every row of the pair array, channel by channel. Its grid has 64
  points; point t takes rows 16384·t … 16384·t + 16383 of the array (all 64 channels), multiplies each row by the one
  row of 64 scales, adds the one row of 64 shifts, and writes the result to the same rows of the output. The 64 blocks
  of 16384 rows tile the 1048576 rows, so the output array is the function `affine` of the three arrays the kernel
  reads, at every index.
-/
import proofs.«103970_j66271345377493_1_alg».proof.Proof.Gen.KernelIdeal.Frame
import proofs.«103970_j66271345377493_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Affine

open Cert.KernelIdeal Cert.KernelIdeal.Gen Idealize.ShloMosaic Idealize.ShloMosaic.TcCoe Idealize.SL.Sem Cert.PairNorm
open Idealize.ShloMosaic.ValueIdx

variable (V : (c : Dev nD) → (b : Ref sig .tc) → Buf (Elt Ideal) ((c : Thread nD τ).loc b))

/-- The body's arithmetic at one element of the block: the element times the scale of its channel plus the shift of
    its channel (the two identity casts drop out; the two rows are copied down the 16384 rows). -/
theorem pay_apply (x : Vec Ideal S16384x64 .f32) (a b : Vec Ideal S1x64 .f32) (p : Fin 16384) (ch : Fin 64) :
    k2_pay1 x a b (ix2 p ch) = x (ix2 p ch) * a (ix2 0 ch) + b (ix2 0 ch) := by
  unfold k2_pay1
  rw [addf_apply, mulf_apply, shapeCast_self, shapeCast_self, shapeCast_self,
    broadcastTo_1b_ab_apply, broadcastTo_1b_ab_apply]

/-- The zero offsets of the body's whole-buffer load and store, as a constant function. -/
theorem hz : (![0, 0] : Fin 2 → Nat) = fun _ => 0 := funext fun a => by fin_cases a <;> rfl

/-- The four windows' block indices at every grid point, decided over the 64 points: the input rows and the output
    rows are block t on the row axis and block 0 on the channel axis; the scales and the shifts are always block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Reading block t of an array of 1048576 rows through the output window is the array at the block's place. -/
theorem read_out (t : Fin cfg2.N) (G : Rows.Idx → EReal) (j : S16384x64.Idx) :
    ((cfg2.win 3).blk t).view.read (Elt Ideal) G j = G (((cfg2.win 3).blk t).view.emb j) := rfl

/-- The block of input rows at point t is the input array at the block's place. -/
theorem read_in0 (c : Dev nD) (t : Fin cfg2.N) (j : S16384x64.Idx) :
    iblk2 V c 0 t j = V c main_v27 (((cfg2.win 0).blk t).view.emb j) := rfl

/-- The block of scales at point t is the scale array at the block's place. -/
theorem read_in1 (c : Dev nD) (t : Fin cfg2.N) (j : S1x64.Idx) :
    iblk2 V c 1 t j = V c main_v43 (((cfg2.win 1).blk t).view.emb j) := rfl

/-- The block of shifts at point t is the shift array at the block's place. -/
theorem read_in2 (c : Dev nD) (t : Fin cfg2.N) (j : S1x64.Idx) :
    iblk2 V c 2 t j = V c main_v44 (((cfg2.win 2).blk t).view.emb j) := rfl

/-- The input block and the output block at point t sit at the same place of their arrays. -/
theorem emb_in0 (t : Fin cfg2.N) (p : Fin 16384) (ch : Fin 64) :
    ((cfg2.win 0).blk t).view.emb (ix2 p ch) = ((cfg2.win 3).blk t).view.emb (ix2 p ch) := by
  obtain ⟨e00, e01, -, -, -, -, e30, e31⟩ := idx_facts t
  funext a; apply Fin.ext
  match a with
  | ⟨0, _⟩ =>
    show win2_0.index t (0 : Fin 2) * 16384 + 1 * p.val = win2_3.index t (0 : Fin 2) * 16384 + 1 * p.val
    omega
  | ⟨1, _⟩ =>
    show win2_0.index t (1 : Fin 2) * 64 + 1 * ch.val = win2_3.index t (1 : Fin 2) * 64 + 1 * ch.val
    omega

/-- The one row of scales is read at the channel of the output element, whatever the point. -/
theorem emb_in1 (t : Fin cfg2.N) (p : Fin 16384) (ch : Fin 64) :
    ((cfg2.win 1).blk t).view.emb (ix2 0 ch)
      = (ix2 (0 : Fin 1) ((((cfg2.win 3).blk t).view.emb (ix2 p ch)) 1) : Row1.Idx) := by
  obtain ⟨-, -, e10, e11, -, -, e30, e31⟩ := idx_facts t
  funext a; apply Fin.ext
  match a with
  | ⟨0, _⟩ =>
    show win2_1.index t (0 : Fin 2) * 1 + 1 * 0 = 0
    omega
  | ⟨1, _⟩ =>
    show win2_1.index t (1 : Fin 2) * 64 + 1 * ch.val = win2_3.index t (1 : Fin 2) * 64 + 1 * ch.val
    omega

/-- The one row of shifts is read at the channel of the output element, whatever the point. -/
theorem emb_in2 (t : Fin cfg2.N) (p : Fin 16384) (ch : Fin 64) :
    ((cfg2.win 2).blk t).view.emb (ix2 0 ch)
      = (ix2 (0 : Fin 1) ((((cfg2.win 3).blk t).view.emb (ix2 p ch)) 1) : Row1.Idx) := by
  obtain ⟨-, -, -, -, e20, e21, e30, e31⟩ := idx_facts t
  funext a; apply Fin.ext
  match a with
  | ⟨0, _⟩ =>
    show win2_2.index t (0 : Fin 2) * 1 + 1 * 0 = 0
    omega
  | ⟨1, _⟩ =>
    show win2_2.index t (1 : Fin 2) * 64 + 1 * ch.val = win2_3.index t (1 : Fin 2) * 64 + 1 * ch.val
    omega

/-- The arithmetic of one output element, once every block read is a read of its array: the three places agree, so
    the product and sum the body forms is `affine` of the arrays at the output element's place. -/
theorem elt_eq (X : Rows.Idx → EReal) (a b : Row1.Idx → EReal) (t : Fin cfg2.N) (p : Fin 16384) (ch : Fin 64) :
    X (((cfg2.win 0).blk t).view.emb (ix2 p ch)) * a (((cfg2.win 1).blk t).view.emb (ix2 0 ch))
        + b (((cfg2.win 2).blk t).view.emb (ix2 0 ch))
      = affine X a b (((cfg2.win 3).blk t).view.emb (ix2 p ch)) := by
  rw [emb_in0 t p ch, emb_in1 t p ch, emb_in2 t p ch]
  rfl

/-- What point t writes back is block t of `affine` of the three arrays as the region finds them: the body's one
    store fills the whole buffer with its payload, the payload at an element is the product and sum above, and the
    three blocks are read at the places the index facts give. -/
theorem flushed_eq (c : Dev nD) (t : Fin cfg2.N) :
    (dat2 (F := Ideal) V c).flushed 3 t
      = ((cfg2.win 3).blk t).view.read (Elt Ideal) (affine (V c main_v27) (V c main_v43) (V c main_v44)) := by
  show (cfg2.win 3).cut (grid2.coords t) ((dat2 V c).after 3 t) = _
  rw [after2_3]
  unfold out2_3
  rw [View.canon_unit_zero hz]
  simp only [View.ld_unit_zero (S := S16384x64) hz, View.ld_unit_zero (S := S1x64) hz]
  funext j
  obtain ⟨p, ch, rfl⟩ : ∃ (p : Fin 16384) (ch : Fin 64), j = ix2 p ch := ⟨j 0, j 1, eq_ix2 j⟩
  refine Eq.trans ?_ (read_out t _ (ix2 p ch)).symm
  show k2_pay1 (iblk2 V c 0 t) (iblk2 V c 1 t) (iblk2 V c 2 t) (ix2 p ch) = _
  refine (pay_apply _ _ _ p ch).trans ?_
  rw [read_in0, read_in1, read_in2]
  exact elt_eq (V c main_v27) (V c main_v43) (V c main_v44) t p ch

/-- An index of the output array is in point t's block iff each coordinate is in the block's range on its axis. -/
theorem mem_blk (t : Fin cfg2.N) (i : Rows.Idx) :
    i ∈ ((cfg2.win 3).blk t).view.set
      ↔ ∀ a : Fin 2, win2_3.index t a * S16384x64.size a ≤ (i a).val
          ∧ (i a).val < win2_3.index t a * S16384x64.size a + S16384x64.size a := by
  show i ∈ ((View.whole main_v45).slice (win2_3.rect t)).set ↔ _
  rw [View.set_slice_whole, Rect.mem_set_unit]
  exact Iff.rfl

/-- Each of the 64 blocks of 16384 rows is some point's (decided over the grid). -/
theorem idx_onto : ∀ q : Fin 64, ∃ t : Fin cfg2.N, win2_3.index t = ![q.val, 0] :=
  (by decide +kernel : ∀ q : Fin 64, ∃ t : Fin grid2.N, win2_3.index t = ![q.val, 0])

/-- The 64 blocks tile the 1048576 rows: row r is in block r / 16384, and every channel is in every block. -/
theorem cover (i : Rows.Idx) :
    ∃ t : Fin cfg2.N, (cfg2.win 3).flush t = true ∧ i ∈ ((cfg2.win 3).blk t).view.set := by
  have hi0 : (i 0).val < 1048576 := (i 0).isLt
  have hi1 : (i 1).val < 64 := (i 1).isLt
  obtain ⟨t, ht⟩ := idx_onto ⟨(i 0).val / 16384, by omega⟩
  have q0 : win2_3.index t (0 : Fin 2) = (i 0).val / 16384 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 16384 ≤ (i 0).val ∧ (i 0).val < win2_3.index t (0 : Fin 2) * 16384 + 16384
    omega
  | ⟨1, _⟩ =>
    show win2_3.index t (1 : Fin 2) * 64 ≤ (i 1).val ∧ (i 1).val < win2_3.index t (1 : Fin 2) * 64 + 64
    omega

/-- The output array after the run: every row of the input times the row of scales plus the row of shifts. -/
theorem arr (c : Dev nD) :
    (dat2 (F := Ideal) V c).arrAt 3 cfg2.N = affine (V c main_v27) (V c main_v43) (V c main_v44) :=
  (dat2 (F := Ideal) V c).arrAt_eq_of_cover 3 _ (fun t _ => flushed_eq V c t) cover

end Cert.KernelIdeal.Affine

end
-- ==== Proof.NormSpec.lean ====
/-
  The two ways of normalising the rows of X, channel by channel, on the extended reals.

  Fix a channel ch. With N = 1048576 the number of rows, s = ∑ᵣ X(r, ch) the column sum and q = ∑ᵣ X(r, ch)² the
  column sum of squares, the mean is μ = s / N. The first way takes the variance as q / N − μ², folds the scale
  γ(ch) · rsqrt(variance + ε) and the shift β(ch) − μ · scale into two numbers per channel, and returns
  X(r, ch) · scale + shift (`viaMoments`). The second way takes the variance as the mean of (X(r, ch) − μ)² and returns
  (X(r, ch) − μ) · rsqrt(variance + ε) · γ(ch) + β(ch) (`viaDeviations`); there every sum starts from the zero word.
  The count, the stabiliser ε and zero are single-precision words read at their exact values.
-/
import Idealize.ShloMosaic.PureOps.Ideal
import Idealize.ShloMosaic.Lib.ValueIdx
import proofs.«103970_j66271345377493_1_alg».proof.Proof.Spec

noncomputable section

namespace Cert.PairNorm

open Idealize.ShloMosaic Idealize.ShloMosaic.ValueIdx

/-- The 64 channels as a vector. -/
abbrev Chan : Shape := ⟨1, ![64]⟩

/-- The word of the row count, 2^20 = 1048576. -/
def countW : EReal := Ideal.ofBits .f32 0x49800000#32
/-- The word of the stabiliser, about 1e-5. -/
def epsW : EReal := Ideal.ofBits .f32 0x3727C5AC#32
/-- The word of all zeros. -/
def zeroW : EReal := Ideal.ofBits .f32 0x00000000#32

/-- The scale of one channel from its column sum s, its column sum of squares q and its gain g. -/
def scaleOf (s q g : EReal) : EReal :=
  g * Ideal.rsqrt ((Ideal.div q countW - Ideal.div s countW * Ideal.div s countW) + epsW)

/-- The shift of one channel from the same and its offset b. -/
def shiftOf (s q g b : EReal) : EReal := b - Ideal.div s countW * scaleOf s q g

/-- Normalising through the two column moments. -/
def viaMoments (X : Rows.Idx → EReal) (γ β : Chan.Idx → EReal) : Rows.Idx → EReal :=
  fun i => X i * scaleOf (∑ r : Fin 1048576, X (ix2 r (i 1))) (∑ r : Fin 1048576, X (ix2 r (i 1)) * X (ix2 r (i 1))) (γ (ix1 (i 1)))
    + shiftOf (∑ r : Fin 1048576, X (ix2 r (i 1))) (∑ r : Fin 1048576, X (ix2 r (i 1)) * X (ix2 r (i 1))) (γ (ix1 (i 1))) (β (ix1 (i 1)))

/-- The mean of channel ch, the sum started from the zero word. -/
def meanOf (X : Rows.Idx → EReal) (ch : Fin 64) : EReal :=
  Ideal.div (zeroW + ∑ r : Fin 1048576, X (ix2 r ch)) countW

/-- Normalising through the deviations from the mean. -/
def viaDeviations (X : Rows.Idx → EReal) (γ β : Chan.Idx → EReal) : Rows.Idx → EReal :=
  fun i => (X i - meanOf X (i 1))
      * Ideal.rsqrt (Ideal.div (zeroW + ∑ r : Fin 1048576, (X (ix2 r (i 1)) - meanOf X (i 1)) * (X (ix2 r (i 1)) - meanOf X (i 1))) countW + epsW)
      * γ (ix1 (i 1)) + β (ix1 (i 1))

end Cert.PairNorm

end
-- ==== Proof.HostTails.lean ====
/-
  Two host stretches read at an index, at the exact values.

  The first is the normalisation the reference program applies to the array X of all rows: per channel the mean of X
  (a sum over the rows started from the zero word, divided by the count word), the deviations X − mean, the mean of
  their squares, the reciprocal square root of that plus the stabiliser word, and then deviation · rsqrt · gain + offset,
  every per-channel row broadcast back over the rows. Read at row r and channel ch it is `viaDeviations`.

  The second is the stretch of the other program between its second and third launch: from the row of column sums and the
  row of column sums of squares it forms, per channel, the mean, the variance as the mean of the squares minus the square
  of the mean, the scale gain · rsqrt(variance + stabiliser) and the shift offset − mean · scale, each kept as a matrix
  with a single row. With these two rows, row · scale + shift read at row r and channel ch is `viaMoments`.

  Both are readings only: a broadcast reads the operand at the result index's trailing coordinates, a cast between a
  vector and a one-row matrix keeps the channel, and a sum over the row axis is the sum over the row coordinate.
-/
import Mathlib
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«103970_j66271345377493_1_alg».proof.Proof.NormSpec
import proofs.«103970_j66271345377493_1_alg».proof.Proof.Gen.ReferenceIdeal
import proofs.«103970_j66271345377493_1_alg».proof.Proof.Gen.KernelIdeal

noncomputable section

namespace Cert.PairNorm

open Idealize.ShloMosaic Idealize.ShloMosaic.ValueIdx

/-- A vector of 64 channels broadcast to a single row and then over all rows reads, at row r and channel c, its entry c. -/
theorem rowBcast_apply {α : Type} (h1 : (⟨1, ![64]⟩ : Shape).BroadcastsInDim ⟨2, ![1, 64]⟩ ![1])
    (h2 : (⟨2, ![1, 64]⟩ : Shape).BroadcastsInDim ⟨2, ![1048576, 64]⟩ ![0, 1]) (v : (⟨1, ![64]⟩ : Shape).Idx → α)
    (r : Fin 1048576) (c : Fin 64) :
    broadcastInDim ⟨2, ![1048576, 64]⟩ ![0, 1] h2 (broadcastInDim ⟨2, ![1, 64]⟩ ![1] h1 v) (ix2 r c) = v (ix1 c) := by
  refine (broadcastInDim_apply _ h2 _ (ix2 r c) (ix2 (0 : Fin 1) c) (fun a => match a with
    | ⟨0, _⟩ => rfl
    | ⟨1, _⟩ => rfl)).trans ?_
  exact broadcastInDim_apply _ h1 v (ix2 (0 : Fin 1) c) (ix1 c) (fun a => match a with
    | ⟨0, _⟩ => rfl)

/-- The host's sum of an array of rows over the row axis, started from the zero word, read at channel c: the zero word
    plus the sum over the rows of the entry at that channel. -/
theorem rowSum_apply (hr : (⟨2, ![1048576, 64]⟩ : Shape).ReducesTo [0] ⟨1, ![64]⟩) (hu : 0 < (⟨0, ![]⟩ : Shape).numel)
    (Y : FVec Ideal ⟨2, ![1048576, 64]⟩ .f32) (c : Fin 64) :
    Host.reduceAdd (F := Ideal) Y (constant (F := Ideal) ⟨0, ![]⟩ .f32 0x00000000#32) hr hu (ix1 c)
      = zeroW + ∑ r : Fin 1048576, Y (ix2 r c) := by
  have h : (⟨2, ![1048576, 64]⟩ : Shape).Reduces [0] ⟨1, ![64]⟩ := by decide
  refine (Ideal.hostReduceAdd_single hr h Y _ (ix1 c)).trans ?_
  show zeroW + ∑ k : Fin 1048576, Y (h.lift (ix1 c) k) = _
  refine congrArg (zeroW + ·) (Finset.sum_congr rfl fun k _ => congrArg Y ?_)
  funext a
  match a with
  | ⟨0, _⟩ => exact Fin.ext rfl
  | ⟨1, _⟩ => exact Fin.ext rfl

end Cert.PairNorm

namespace Cert.ReferenceIdeal.Tail

open Idealize.ShloMosaic Idealize.ShloMosaic.ValueIdx
open Cert.ReferenceIdeal Cert.ReferenceIdeal.Gen
open Cert.PairNorm (zeroW countW epsW meanOf viaDeviations rowBcast_apply rowSum_apply)

/-- The mean per channel: the sum over the rows, started from the zero word, divided by the count word. -/
def meanVec (X : FVec Ideal S1048576x64 .f32) : FVec Ideal S64 .f32 :=
  Host.divf (F := Ideal)
    (Host.reduceAdd (F := Ideal) X (constant (F := Ideal) S_ .f32 0x00000000#32) reducesTo_S1048576x64_S64_d0 h_S_)
    (broadcastInDim S64 ![] bcast_S_S64 (constant (F := Ideal) S_ .f32 0x49800000#32))

/-- The deviations from the mean: the mean row broadcast to a single row and then over all rows, subtracted from X. -/
def dev (X : FVec Ideal S1048576x64 .f32) : FVec Ideal S1048576x64 .f32 :=
  subf X
    (broadcastInDim S1048576x64 ![0, 1] bcast_S1x64_S1048576x64_0_1 (broadcastInDim S1x64 ![1] bcast_S64_S1x64_1 (meanVec X)))

/-- Per channel, the reciprocal square root of the mean of the squared deviations plus the stabiliser word. -/
def rsVec (X : FVec Ideal S1048576x64 .f32) : FVec Ideal S64 .f32 :=
  Host.rsqrt (F := Ideal)
    (addf
      (Host.divf (F := Ideal)
        (Host.reduceAdd (F := Ideal) (mulf (dev X) (dev X)) (constant (F := Ideal) S_ .f32 0x00000000#32)
          reducesTo_S1048576x64_S64_d0 h_S_)
        (broadcastInDim S64 ![] bcast_S_S64 (constant (F := Ideal) S_ .f32 0x49800000#32)))
      (broadcastInDim S64 ![] bcast_S_S64 (constant (F := Ideal) S_ .f32 0x3727C5AC#32)))

/-- The whole stretch: deviation times reciprocal square root times gain, plus offset, each per-channel vector broadcast
    to a single row and then over all rows. -/
def tail (X : FVec Ideal S1048576x64 .f32) (γ β : FVec Ideal S64 .f32) : FVec Ideal S1048576x64 .f32 :=
  addf
    (mulf
      (mulf (dev X)
        (broadcastInDim S1048576x64 ![0, 1] bcast_S1x64_S1048576x64_0_1 (broadcastInDim S1x64 ![1] bcast_S64_S1x64_1 (rsVec X))))
      (broadcastInDim S1048576x64 ![0, 1] bcast_S1x64_S1048576x64_0_1 (broadcastInDim S1x64 ![1] bcast_S64_S1x64_1 γ)))
    (broadcastInDim S1048576x64 ![0, 1] bcast_S1x64_S1048576x64_0_1 (broadcastInDim S1x64 ![1] bcast_S64_S1x64_1 β))

/-- The mean vector at channel ch is the mean of that channel. -/
theorem meanVec_apply (X : FVec Ideal S1048576x64 .f32) (ch : Fin 64) : meanVec X (ix1 ch) = meanOf X ch := by
  show Ideal.div (Host.reduceAdd (F := Ideal) X (constant (F := Ideal) S_ .f32 0x00000000#32)
      reducesTo_S1048576x64_S64_d0 h_S_ (ix1 ch)) (Ideal.ofBits .f32 0x49800000#32) = _
  rw [rowSum_apply]
  rfl

/-- The deviation at row r and channel ch. -/
theorem dev_apply (X : FVec Ideal S1048576x64 .f32) (r : Fin 1048576) (ch : Fin 64) :
    dev X (ix2 r ch) = X (ix2 r ch) - meanOf X ch := by
  unfold dev
  rw [subf_apply, rowBcast_apply, meanVec_apply]

/-- The reciprocal square root at channel ch. -/
theorem rsVec_apply (X : FVec Ideal S1048576x64 .f32) (ch : Fin 64) :
    rsVec X (ix1 ch)
      = Ideal.rsqrt (Ideal.div (zeroW + ∑ r : Fin 1048576, (X (ix2 r ch) - meanOf X ch) * (X (ix2 r ch) - meanOf X ch)) countW + epsW) := by
  show Ideal.rsqrt (Ideal.div (Host.reduceAdd (F := Ideal) (mulf (dev X) (dev X)) (constant (F := Ideal) S_ .f32 0x00000000#32)
      reducesTo_S1048576x64_S64_d0 h_S_ (ix1 ch)) (Ideal.ofBits .f32 0x49800000#32) + Ideal.ofBits .f32 0x3727C5AC#32) = _
  rw [rowSum_apply]
  have e : ∀ r : Fin 1048576, mulf (dev X) (dev X) (ix2 r ch) = (X (ix2 r ch) - meanOf X ch) * (X (ix2 r ch) - meanOf X ch) :=
    fun r => by rw [mulf_apply, dev_apply]
  rw [Finset.sum_congr rfl fun r _ => e r]
  rfl

/-- The reference's normalisation is the normalisation through the deviations from the mean. -/
theorem tail_eq (X : FVec Ideal S1048576x64 .f32) (γ β : FVec Ideal S64 .f32) : tail X γ β = viaDeviations X γ β := by
  funext i
  obtain ⟨r, ch, rfl⟩ : ∃ (r : Fin 1048576) (ch : Fin 64), i = ix2 r ch := ⟨i 0, i 1, eq_ix2 i⟩
  have e : tail X γ β (ix2 r ch) = dev X (ix2 r ch) * rsVec X (ix1 ch) * γ (ix1 ch) + β (ix1 ch) := by
    unfold tail
    rw [addf_apply, mulf_apply, mulf_apply, rowBcast_apply, rowBcast_apply, rowBcast_apply]
  rw [e, dev_apply, rsVec_apply]
  rfl

end Cert.ReferenceIdeal.Tail

namespace Cert.KernelIdeal.Tail

open Idealize.ShloMosaic Idealize.ShloMosaic.ValueIdx
open Cert.KernelIdeal Cert.KernelIdeal.Gen
open Cert.PairNorm (countW epsW scaleOf shiftOf viaMoments affine colSum colSumSq)

/-- The mean row: the column sums kept as a vector of 64 channels, each divided by the count word. -/
def meanVec (S : FVec Ideal S1x64 .f32) : FVec Ideal S64 .f32 :=
  Host.divf (F := Ideal) (shapeCast S64 S shapeCasts_S1x64_S64)
    (broadcastInDim S64 ![] bcast_S_S64 (constant (F := Ideal) S_ .f32 0x49800000#32))

/-- The scale as a vector of 64 channels: the gain times the reciprocal square root of the variance, taken as the mean of
    the squares minus the square of the mean, plus the stabiliser word. -/
def scaleVec (S Q : FVec Ideal S1x64 .f32) (γ : FVec Ideal S64 .f32) : FVec Ideal S64 .f32 :=
  mulf γ
    (Host.rsqrt (F := Ideal)
      (addf
        (subf
          (Host.divf (F := Ideal) (shapeCast S64 Q shapeCasts_S1x64_S64)
            (broadcastInDim S64 ![] bcast_S_S64 (constant (F := Ideal) S_ .f32 0x49800000#32)))
          (mulf (meanVec S) (meanVec S)))
        (broadcastInDim S64 ![] bcast_S_S64 (constant (F := Ideal) S_ .f32 0x3727C5AC#32))))

/-- The scale kept as a matrix with a single row. -/
def scaleRow (S Q : FVec Ideal S1x64 .f32) (γ : FVec Ideal S64 .f32) : FVec Ideal S1x64 .f32 :=
  shapeCast S1x64 (scaleVec S Q γ) shapeCasts_S64_S1x64

/-- The shift kept as a matrix with a single row: the offset minus the mean times the scale. -/
def shiftRow (S Q : FVec Ideal S1x64 .f32) (γ β : FVec Ideal S64 .f32) : FVec Ideal S1x64 .f32 :=
  shapeCast S1x64 (subf β (mulf (meanVec S) (scaleVec S Q γ))) shapeCasts_S64_S1x64

/-- The mean vector at channel c: the column sum of that channel divided by the count word. -/
theorem meanVec_apply (S : FVec Ideal S1x64 .f32) (c : Fin 64) : meanVec S (ix1 c) = Ideal.div (S (ix2 (0 : Fin 1) c)) countW := by
  show Ideal.div (shapeCast S64 S shapeCasts_S1x64_S64 (ix1 c)) (Ideal.ofBits .f32 0x49800000#32) = _
  rw [shapeCast_1a_a_apply]
  rfl

/-- The scale vector at channel c is the scale of that channel. -/
theorem scaleVec_apply (S Q : FVec Ideal S1x64 .f32) (γ : FVec Ideal S64 .f32) (c : Fin 64) :
    scaleVec S Q γ (ix1 c) = scaleOf (S (ix2 (0 : Fin 1) c)) (Q (ix2 (0 : Fin 1) c)) (γ (ix1 c)) := by
  show γ (ix1 c) * Ideal.rsqrt ((Ideal.div (shapeCast S64 Q shapeCasts_S1x64_S64 (ix1 c)) (Ideal.ofBits .f32 0x49800000#32)
      - meanVec S (ix1 c) * meanVec S (ix1 c)) + Ideal.ofBits .f32 0x3727C5AC#32) = _
  rw [shapeCast_1a_a_apply, meanVec_apply]
  rfl

/-- The scale row at its one row and channel c. -/
theorem scaleRow_apply (S Q : FVec Ideal S1x64 .f32) (γ : FVec Ideal S64 .f32) (c : Fin 64) :
    scaleRow S Q γ (ix2 (0 : Fin 1) c) = scaleOf (S (ix2 (0 : Fin 1) c)) (Q (ix2 (0 : Fin 1) c)) (γ (ix1 c)) := by
  unfold scaleRow
  rw [shapeCast_a_1a_apply, scaleVec_apply]

/-- The shift row at its one row and channel c. -/
theorem shiftRow_apply (S Q : FVec Ideal S1x64 .f32) (γ β : FVec Ideal S64 .f32) (c : Fin 64) :
    shiftRow S Q γ β (ix2 (0 : Fin 1) c)
      = shiftOf (S (ix2 (0 : Fin 1) c)) (Q (ix2 (0 : Fin 1) c)) (γ (ix1 c)) (β (ix1 c)) := by
  unfold shiftRow
  rw [shapeCast_a_1a_apply, subf_apply, mulf_apply, meanVec_apply, scaleVec_apply]
  rfl

/-- Scaling every row of X by the scale row and shifting it by the shift row, both formed from X's column sums and column
    sums of squares, is the normalisation through the two column moments. -/
theorem affine_eq (X : FVec Ideal S1048576x64 .f32) (γ β : FVec Ideal S64 .f32) :
    affine X (scaleRow (colSum X) (colSumSq X) γ) (shiftRow (colSum X) (colSumSq X) γ β) = viaMoments X γ β := by
  funext i
  obtain ⟨r, ch, rfl⟩ : ∃ (r : Fin 1048576) (ch : Fin 64), i = ix2 r ch := ⟨i 0, i 1, eq_ix2 i⟩
  show X (ix2 r ch) * scaleRow (colSum X) (colSumSq X) γ (ix2 (0 : Fin 1) ch)
      + shiftRow (colSum X) (colSumSq X) γ β (ix2 (0 : Fin 1) ch) = _
  rw [scaleRow_apply, shiftRow_apply]
  rfl

end Cert.KernelIdeal.Tail

end
-- ==== Proof.KernelValue.lean ====
/-
  What the idealized kernel program's result array holds, as one function of its argument arrays.

  Write s and d for the two projections of the node features re-laid with a unit axis, P for the array of all pairs
  (s at the source node plus d at the destination node), X for P flattened to one row per pair with the edge
  attributes added into the rows the edge list names. The second launch leaves the column sums of X and of its
  squares; the host turns them, with the gain γ and the offset β, into one scale row and one shift row; the third
  launch multiplies every row of X by the scale row and adds the shift row. So the result is X normalised through
  its two column moments.
-/
import proofs.«103970_j66271345377493_1_alg».proof.Proof.KernelHost
import proofs.«103970_j66271345377493_1_alg».proof.Proof.KernelIndex
import proofs.«103970_j66271345377493_1_alg».proof.Proof.PairSum
import proofs.«103970_j66271345377493_1_alg».proof.Proof.ColSums
import proofs.«103970_j66271345377493_1_alg».proof.Proof.Affine
import proofs.«103970_j66271345377493_1_alg».proof.Proof.HostTails

noncomputable section

namespace Cert.KernelIdeal.Stages

open Cert.KernelIdeal Cert.KernelIdeal.Gen Idealize.ShloMosaic Idealize.ShloMosaic.TcCoe Idealize.SL.Sem
open Idealize.ShloMosaic.StableHlo Cert.PairNorm

variable (m : (ℓ : Loc nD τ sig) → Buf (Elt Ideal) ℓ) (ρ : Dev nD → PrngReg) (c : Dev nD)

/-- The array of all pairs flattened, with the edge attributes added into the rows the edge list names: a function
    of the node features, the two weight matrices, the edge attributes and the edge list. -/
def scattered (a0 : FVec Ideal S8192x24 .f32) (a1 : FVec Ideal S131072x64 .f32) (a2 a3 : FVec Ideal S24x64 .f32)
    (a6 : IVec S2x131072 32) : FVec Ideal S1048576x64 .f32 :=
  Host.scatterAdd (F := Ideal) scatter_S1048576x64_S131072x1_S131072x64_1_0_0_1
    (shapeCast S1048576x64
      (pairSum
        (shapeCast S64x128x1x64 (Host.dotGeneral (F := Ideal) dot_S8192x24_S24x64_S8192x64_1_0_0_1_n_n none a0 a2) shapeCasts_S8192x64_S64x128x1x64)
        (shapeCast S64x1x128x64 (Host.dotGeneral (F := Ideal) dot_S8192x24_S24x64_S8192x64_1_0_0_1_n_n none a0 a3) shapeCasts_S8192x64_S64x1x128x64))
      shapeCasts_S64x128x128x64_S1048576x64)
    (flatIndex slices_S2x131072_S1x131072_0_0 slices_S2x131072_S1x131072_1_0 shapeCasts_S1x131072_S131072 bcast_S_S131072
      bcast_S131072_S131072x1_0 a6)
    a1

/-- After the first launch the array of all pairs holds the pair sums of the two re-laid projections. -/
theorem pairs_W2 : W2 m ρ c (Proc.devRef .tc main_v4)
    = pairSum (W1 m ρ c (Proc.devRef .tc main_v2)) (W1 m ρ c (Proc.devRef .tc main_v3)) :=
  (W2_arr m ρ c 2).trans (PairSum.arr (V1 m ρ) c)

/-- At the second launch's entry the scattered array is the function `scattered` of the arguments. -/
theorem scattered_W9 : W9 m ρ c (Proc.devRef .tc main_v27)
    = scattered (m ((c : Thread nD τ).loc main_arg0)) (m ((c : Thread nD τ).loc main_arg1)) (m ((c : Thread nD τ).loc main_arg2))
        (m ((c : Thread nD τ).loc main_arg3)) (m ((c : Thread nD τ).loc main_arg6)) := by
  rw [scatter_W9, pairs_W2, src_rows, dst_rows, arg_W2 m ρ c main_arg1 (.inl rfl)]
  rw [show W9 m ρ c (Proc.devRef .tc main_v26) = _ from Index.index_eq (W2 m ρ c), arg_W2 m ρ c main_arg6 (.inr (.inr (.inr rfl)))]
  rfl

/-- The second launch leaves its input as it found it. -/
theorem kept_W10 : W10 m ρ c (Proc.devRef .tc main_v27) = W9 m ρ c (Proc.devRef .tc main_v27) :=
  (W10_arr m ρ c 0).trans (ColSums.arr_in (V9 m ρ) c)

/-- After the second launch: the column sums of the scattered array. -/
theorem sums_W10 : W10 m ρ c (Proc.devRef .tc main_v28_0) = colSum (W9 m ρ c (Proc.devRef .tc main_v27)) :=
  (W10_arr m ρ c 1).trans (ColSums.arr_sum (V9 m ρ) c)

/-- After the second launch: the column sums of its squares. -/
theorem sumsqs_W10 : W10 m ρ c (Proc.devRef .tc main_v28_1) = colSumSq (W9 m ρ c (Proc.devRef .tc main_v27)) :=
  (W10_arr m ρ c 2).trans (ColSums.arr_sumsq (V9 m ρ) c)

/-- The second launch writes neither the gain nor the offset. -/
theorem arg_W10 (b : Ref sig .tc) (hb : b = main_arg4 ∨ b = main_arg5) :
    W10 m ρ c (Proc.devRef .tc b) = m ((c : Thread nD τ).loc b) := by
  rcases hb with rfl | rfl
  · exact (W10_of_ne m ρ c _ (by decide)).trans (arg_W9 m ρ c _ (.inr (.inl rfl)))
  · exact (W10_of_ne m ρ c _ (by decide)).trans (arg_W9 m ρ c _ (.inr (.inr (.inl rfl))))

/-- Between the second and the third launch: the scale row, the shift row, and the scattered array untouched. -/
theorem scale_W11 : W11 m ρ c (Proc.devRef .tc main_v43)
    = Tail.scaleRow (W10 m ρ c (Proc.devRef .tc main_v28_0)) (W10 m ρ c (Proc.devRef .tc main_v28_1)) (W10 m ρ c (Proc.devRef .tc main_arg4)) := by
  show StableHlo.after hostOps2 (W10 m ρ c) (Proc.devRef .tc main_v43) = _
  generalize W10 m ρ c = W
  set_option maxHeartbeats 4000000 in
  after_results_simp
  rfl

theorem shift_W11 : W11 m ρ c (Proc.devRef .tc main_v44)
    = Tail.shiftRow (W10 m ρ c (Proc.devRef .tc main_v28_0)) (W10 m ρ c (Proc.devRef .tc main_v28_1)) (W10 m ρ c (Proc.devRef .tc main_arg4))
        (W10 m ρ c (Proc.devRef .tc main_arg5)) := by
  show StableHlo.after hostOps2 (W10 m ρ c) (Proc.devRef .tc main_v44) = _
  generalize W10 m ρ c = W
  set_option maxHeartbeats 4000000 in
  after_results_simp
  rfl

theorem kept_W11 : W11 m ρ c (Proc.devRef .tc main_v27) = W10 m ρ c (Proc.devRef .tc main_v27) := by
  show StableHlo.after hostOps2 (W10 m ρ c) (Proc.devRef .tc main_v27) = _
  generalize W10 m ρ c = W
  after_results_simp

/-- The result array after the third launch: the scattered array normalised through its two column moments. -/
theorem result_W12 : W12 m ρ c (Proc.devRef .tc main_v45)
    = viaMoments (scattered (m ((c : Thread nD τ).loc main_arg0)) (m ((c : Thread nD τ).loc main_arg1)) (m ((c : Thread nD τ).loc main_arg2))
        (m ((c : Thread nD τ).loc main_arg3)) (m ((c : Thread nD τ).loc main_arg6)))
        (m ((c : Thread nD τ).loc main_arg4)) (m ((c : Thread nD τ).loc main_arg5)) := by
  refine (W12_arr m ρ c 3).trans ((Affine.arr (V11 m ρ) c).trans ?_)
  show affine (W11 m ρ c (Proc.devRef .tc main_v27)) (W11 m ρ c (Proc.devRef .tc main_v43)) (W11 m ρ c (Proc.devRef .tc main_v44)) = _
  rw [scale_W11, shift_W11, kept_W11, kept_W10, sums_W10, sumsqs_W10, arg_W10 m ρ c main_arg4 (.inl rfl),
    arg_W10 m ρ c main_arg5 (.inr rfl), scattered_W9]
  exact Tail.affine_eq _ _ _

end Cert.KernelIdeal.Stages

end
-- ==== Proof.RefRun.lean ====
import proofs.«103970_j66271345377493_1_alg».proof.Proof.Gen.ReferenceIdeal
import Idealize.ShloMosaic.Lib.StableHlo.Run

/-! The reference program's @main as one list of host operations — the three outlined integer functions
    (floored quotient, floored remainder twice) written out at their call sites over the buffers of each call —,
    the equation between @main and the straight line of that list, and the run: every weakly fair execution
    terminates with each buffer at the fold of the operations over the launch contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- The two matrix products, their reshapes and broadcasts, the sum and its reshape into rows: `main_v0 … main_v7`. -/
abbrev opsA : List (HloOp τ sig (Elt F)) :=
  [ StableHlo.binary main_arg0 main_arg2 main_v0 ((fun l r => Host.dotGeneral dot_S8192x24_S24x64_S8192x64_1_0_0_1_n_n none l r) : (⟨S8192x24, .f32⟩ : BufTy).Contents (Elt F) → (⟨S24x64, .f32⟩ : BufTy).Contents (Elt F) → (⟨S8192x64, .f32⟩ : BufTy).Contents (Elt F)),
    StableHlo.binary main_arg0 main_arg3 main_v1 ((fun l r => Host.dotGeneral dot_S8192x24_S24x64_S8192x64_1_0_0_1_n_n none l r) : (⟨S8192x24, .f32⟩ : BufTy).Contents (Elt F) → (⟨S24x64, .f32⟩ : BufTy).Contents (Elt F) → (⟨S8192x64, .f32⟩ : BufTy).Contents (Elt F)),
    StableHlo.reshape main_v0 main_v2 rfl shapeCasts_S8192x64_S64x128x1x64,
    StableHlo.reshape main_v1 main_v3 rfl shapeCasts_S8192x64_S64x1x128x64,
    StableHlo.unary main_v2 main_v4 (broadcastInDim S64x128x128x64 ![0, 1, 2, 3] bcast_S64x128x1x64_S64x128x128x64_0_1_2_3 : (⟨S64x128x1x64, .f32⟩ : BufTy).Contents (Elt F) → (⟨S64x128x128x64, .f32⟩ : BufTy).Contents (Elt F)),
    StableHlo.unary main_v3 main_v5 (broadcastInDim S64x128x128x64 ![0, 1, 2, 3] bcast_S64x1x128x64_S64x128x128x64_0_1_2_3 : (⟨S64x1x128x64, .f32⟩ : BufTy).Contents (Elt F) → (⟨S64x128x128x64, .f32⟩ : BufTy).Contents (Elt F)),
    StableHlo.binary main_v4 main_v5 main_v6 (addf : (⟨S64x128x128x64, .f32⟩ : BufTy).Contents (Elt F) → (⟨S64x128x128x64, .f32⟩ : BufTy).Contents (Elt F) → (⟨S64x128x128x64, .f32⟩ : BufTy).Contents (Elt F)),
    StableHlo.reshape main_v6 main_v7 rfl shapeCasts_S64x128x128x64_S1048576x64 ]
theorem opsA_sub : (opsA : List (HloOp τ sig (Elt F))).Forall fun op => op.bufs ⊆ tcRefs τ sig :=
  ⟨binary_bufs_sub .., binary_bufs_sub .., reshape_bufs_sub .., reshape_bufs_sub .., unary_bufs_sub .., unary_bufs_sub .., binary_bufs_sub .., reshape_bufs_sub ..⟩
theorem opsA_fresh : (opsA : List (HloOp τ sig (Elt F))).Forall fun op => op.fresh = ∅ :=
  ⟨rfl, rfl, rfl, rfl, rfl, rfl, rfl, rfl⟩

/-- Row 0 of the index table as a vector, the constant 128, and the floored quotient by it (the outlined function's seventeen operations over its call's buffers): `main_v8 … main_v10`. -/
abbrev opsB1 : List (HloOp τ sig (Elt F)) :=
  [ StableHlo.unary main_arg6 main_v8 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v8 main_v9 rfl shapeCasts_S1x131072_S131072,
    StableHlo.nullary main_c (constantI S_ 32 128#32),
    StableHlo.TRef.unary (.of main_c : StableHlo.TRef sig ⟨S_, .i32⟩) main_call0.v0 id,
    StableHlo.TRef.unary main_call0.v0 main_call0.v1 (broadcastInDim S131072 ![] bcast_S_S131072),
    StableHlo.TRef.binary (.of main_v9 : StableHlo.TRef sig ⟨S131072, .i32⟩) main_call0.v1 main_call0.v2 Host.divsi,
    StableHlo.TRef.unary (.of main_v9 : StableHlo.TRef sig ⟨S131072, .i32⟩) main_call0.v3 signi,
    StableHlo.TRef.unary main_call0.v0 main_call0.v4 signi,
    StableHlo.TRef.unary main_call0.v4 main_call0.v5 (broadcastInDim S131072 ![] bcast_S_S131072),
    StableHlo.TRef.binary main_call0.v3 main_call0.v5 main_call0.v6 (cmpi .ne),
    StableHlo.TRef.unary main_call0.v0 main_call0.v7 (broadcastInDim S131072 ![] bcast_S_S131072),
    StableHlo.TRef.binary (.of main_v9 : StableHlo.TRef sig ⟨S131072, .i32⟩) main_call0.v7 main_call0.v8 Host.remsi,
    StableHlo.TRef.nullary main_call0.c (constantI S_ 32 0#32),
    StableHlo.TRef.unary main_call0.c main_call0.v9 (broadcastInDim S131072 ![] bcast_S_S131072),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S131072 ![] bcast_S_S131072),
    StableHlo.TRef.binary main_call0.v2 main_call0.v12 main_call0.v13 subi,
    StableHlo.TRef.ternary main_call0.v11 main_call0.v13 main_call0.v2 main_call0.call0.v0 select ]
theorem opsB1_sub : (opsB1 : List (HloOp τ sig (Elt F))).Forall fun op => op.bufs ⊆ tcRefs τ sig :=
  ⟨unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Row 0 again, the constant 128, and the floored remainder by it (twenty-one operations over its call's buffers): `main_v11 … main_v13`. -/
abbrev opsB2 : List (HloOp τ sig (Elt F)) :=
  [ StableHlo.unary main_arg6 main_v11 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v11 main_v12 rfl shapeCasts_S1x131072_S131072,
    StableHlo.nullary main_c_0 (constantI S_ 32 128#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S131072 ![] bcast_S_S131072),
    StableHlo.TRef.binary (.of main_v12 : StableHlo.TRef sig ⟨S131072, .i32⟩) main_call1.v3 main_call1.v4 Host.remsi,
    StableHlo.TRef.nullary main_call1.c_1 (constantI S_ 32 0#32),
    StableHlo.TRef.unary main_call1.c_1 main_call1.v5 (broadcastInDim S131072 ![] bcast_S_S131072),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S131072 ![] bcast_S_S131072),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S131072 ![] bcast_S_S131072),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S131072 ![] bcast_S_S131072),
    StableHlo.TRef.binary main_call1.v4 main_call1.v13 main_call1.v14 addi,
    StableHlo.TRef.ternary main_call1.v12 main_call1.v14 main_call1.v4 main_call1.v15 select ]
theorem opsB2_sub : (opsB2 : List (HloOp τ sig (Elt F))).Forall fun op => op.bufs ⊆ tcRefs τ sig :=
  ⟨unary_bufs_sub .., reshape_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Row 1, the constant 128, and its floored remainder: `main_v14 … main_v16`. -/
abbrev opsB3 : List (HloOp τ sig (Elt F)) :=
  [ StableHlo.unary main_arg6 main_v14 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v14 main_v15 rfl shapeCasts_S1x131072_S131072,
    StableHlo.nullary main_c_1 (constantI S_ 32 128#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S131072 ![] bcast_S_S131072),
    StableHlo.TRef.binary (.of main_v15 : StableHlo.TRef sig ⟨S131072, .i32⟩) main_call2.v3 main_call2.v4 Host.remsi,
    StableHlo.TRef.nullary main_call2.c_1 (constantI S_ 32 0#32),
    StableHlo.TRef.unary main_call2.c_1 main_call2.v5 (broadcastInDim S131072 ![] bcast_S_S131072),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S131072 ![] bcast_S_S131072),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S131072 ![] bcast_S_S131072),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S131072 ![] bcast_S_S131072),
    StableHlo.TRef.binary main_call2.v4 main_call2.v13 main_call2.v14 addi,
    StableHlo.TRef.ternary main_call2.v12 main_call2.v14 main_call2.v4 main_call2.v15 select ]
theorem opsB3_sub : (opsB3 : List (HloOp τ sig (Elt F))).Forall fun op => op.bufs ⊆ tcRefs τ sig :=
  ⟨unary_bufs_sub .., reshape_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsB3_fresh : (opsB3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The flat row index `q * 16384 + r₀ * 128 + r₁`, its wrap when negative, the column broadcast, and the scatter-add: `main_c_2 … main_v29`. -/
abbrev opsB4 : List (HloOp τ sig (Elt F)) :=
  [ StableHlo.nullary main_c_2 (constantI S_ 32 16384#32),
    StableHlo.unary main_c_2 main_v17 (broadcastInDim S131072 ![] bcast_S_S131072 : (⟨S_, .i32⟩ : BufTy).Contents (Elt F) → (⟨S131072, .i32⟩ : BufTy).Contents (Elt F)),
    StableHlo.binary main_v10 main_v17 main_v18 (muli : (⟨S131072, .i32⟩ : BufTy).Contents (Elt F) → (⟨S131072, .i32⟩ : BufTy).Contents (Elt F) → (⟨S131072, .i32⟩ : BufTy).Contents (Elt F)),
    StableHlo.nullary main_c_3 (constantI S_ 32 128#32),
    StableHlo.unary main_c_3 main_v19 (broadcastInDim S131072 ![] bcast_S_S131072 : (⟨S_, .i32⟩ : BufTy).Contents (Elt F) → (⟨S131072, .i32⟩ : BufTy).Contents (Elt F)),
    StableHlo.binary main_v13 main_v19 main_v20 (muli : (⟨S131072, .i32⟩ : BufTy).Contents (Elt F) → (⟨S131072, .i32⟩ : BufTy).Contents (Elt F) → (⟨S131072, .i32⟩ : BufTy).Contents (Elt F)),
    StableHlo.binary main_v18 main_v20 main_v21 (addi : (⟨S131072, .i32⟩ : BufTy).Contents (Elt F) → (⟨S131072, .i32⟩ : BufTy).Contents (Elt F) → (⟨S131072, .i32⟩ : BufTy).Contents (Elt F)),
    StableHlo.binary main_v21 main_v16 main_v22 (addi : (⟨S131072, .i32⟩ : BufTy).Contents (Elt F) → (⟨S131072, .i32⟩ : BufTy).Contents (Elt F) → (⟨S131072, .i32⟩ : BufTy).Contents (Elt F)),
    StableHlo.nullary main_c_4 (constantI S_ 32 0#32),
    StableHlo.unary main_c_4 main_v23 (broadcastInDim S131072 ![] bcast_S_S131072 : (⟨S_, .i32⟩ : BufTy).Contents (Elt F) → (⟨S131072, .i32⟩ : BufTy).Contents (Elt F)),
    StableHlo.binary main_v22 main_v23 main_v24 (cmpi .slt : (⟨S131072, .i32⟩ : BufTy).Contents (Elt F) → (⟨S131072, .i32⟩ : BufTy).Contents (Elt F) → (⟨S131072, .i1⟩ : BufTy).Contents (Elt F)),
    StableHlo.nullary main_c_5 (constantI S_ 32 1048576#32),
    StableHlo.unary main_c_5 main_v25 (broadcastInDim S131072 ![] bcast_S_S131072 : (⟨S_, .i32⟩ : BufTy).Contents (Elt F) → (⟨S131072, .i32⟩ : BufTy).Contents (Elt F)),
    StableHlo.binary main_v22 main_v25 main_v26 (addi : (⟨S131072, .i32⟩ : BufTy).Contents (Elt F) → (⟨S131072, .i32⟩ : BufTy).Contents (Elt F) → (⟨S131072, .i32⟩ : BufTy).Contents (Elt F)),
    StableHlo.ternary main_v24 main_v26 main_v22 main_v27 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v27 main_v28 (broadcastInDim S131072x1 ![0] bcast_S131072_S131072x1_0 : (⟨S131072, .i32⟩ : BufTy).Contents (Elt F) → (⟨S131072x1, .i32⟩ : BufTy).Contents (Elt F)),
    StableHlo.ternary main_v7 main_v28 main_arg1 main_v29 ((fun x i u => Host.scatterAdd scatter_S1048576x64_S131072x1_S131072x64_1_0_0_1 x i u) : (⟨S1048576x64, .f32⟩ : BufTy).Contents (Elt F) → (⟨S131072x1, .i32⟩ : BufTy).Contents (Elt F) → (⟨S131072x64, .f32⟩ : BufTy).Contents (Elt F) → (⟨S1048576x64, .f32⟩ : BufTy).Contents (Elt F)) ]
theorem opsB4_sub : (opsB4 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsB4_fresh : (opsB4 : List (HloOp τ sig (Elt F))).Forall fun op => op.fresh = ∅ :=
  ⟨rfl, rfl, rfl, rfl, rfl, rfl, rfl, rfl, rfl, rfl, rfl, rfl, rfl, rfl, rfl, rfl, rfl⟩

/-- The normalization after the scatter: column means, centred squares, variance, reciprocal root, scale and shift: `main_cst … main_v54`. -/
abbrev opsC : List (HloOp τ sig (Elt F)) :=
  [ StableHlo.nullary main_cst (constant S_ .f32 0x00000000#32),
    StableHlo.binary main_v29 main_cst main_v30 ((fun x v => Host.reduceAdd x v reducesTo_S1048576x64_S64_d0 h_S_) : (⟨S1048576x64, .f32⟩ : BufTy).Contents (Elt F) → (⟨S_, .f32⟩ : BufTy).Contents (Elt F) → (⟨S64, .f32⟩ : BufTy).Contents (Elt F)),
    StableHlo.nullary main_cst_6 (constant S_ .f32 0x49800000#32),
    StableHlo.unary main_cst_6 main_v31 (broadcastInDim S64 ![] bcast_S_S64 : (⟨S_, .f32⟩ : BufTy).Contents (Elt F) → (⟨S64, .f32⟩ : BufTy).Contents (Elt F)),
    StableHlo.binary main_v30 main_v31 main_v32 (Host.divf : (⟨S64, .f32⟩ : BufTy).Contents (Elt F) → (⟨S64, .f32⟩ : BufTy).Contents (Elt F) → (⟨S64, .f32⟩ : BufTy).Contents (Elt F)),
    StableHlo.unary main_v32 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S1048576x64 ![0, 1] bcast_S1x64_S1048576x64_0_1 : (⟨S1x64, .f32⟩ : BufTy).Contents (Elt F) → (⟨S1048576x64, .f32⟩ : BufTy).Contents (Elt F)),
    StableHlo.binary main_v29 main_v34 main_v35 (subf : (⟨S1048576x64, .f32⟩ : BufTy).Contents (Elt F) → (⟨S1048576x64, .f32⟩ : BufTy).Contents (Elt F) → (⟨S1048576x64, .f32⟩ : BufTy).Contents (Elt F)),
    StableHlo.binary main_v35 main_v35 main_v36 (mulf : (⟨S1048576x64, .f32⟩ : BufTy).Contents (Elt F) → (⟨S1048576x64, .f32⟩ : BufTy).Contents (Elt F) → (⟨S1048576x64, .f32⟩ : BufTy).Contents (Elt F)),
    StableHlo.nullary main_cst_7 (constant S_ .f32 0x00000000#32),
    StableHlo.binary main_v36 main_cst_7 main_v37 ((fun x v => Host.reduceAdd x v reducesTo_S1048576x64_S64_d0 h_S_) : (⟨S1048576x64, .f32⟩ : BufTy).Contents (Elt F) → (⟨S_, .f32⟩ : BufTy).Contents (Elt F) → (⟨S64, .f32⟩ : BufTy).Contents (Elt F)),
    StableHlo.nullary main_cst_8 (constant S_ .f32 0x49800000#32),
    StableHlo.unary main_cst_8 main_v38 (broadcastInDim S64 ![] bcast_S_S64 : (⟨S_, .f32⟩ : BufTy).Contents (Elt F) → (⟨S64, .f32⟩ : BufTy).Contents (Elt F)),
    StableHlo.binary main_v37 main_v38 main_v39 (Host.divf : (⟨S64, .f32⟩ : BufTy).Contents (Elt F) → (⟨S64, .f32⟩ : BufTy).Contents (Elt F) → (⟨S64, .f32⟩ : BufTy).Contents (Elt F)),
    StableHlo.unary main_v32 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S1048576x64 ![0, 1] bcast_S1x64_S1048576x64_0_1 : (⟨S1x64, .f32⟩ : BufTy).Contents (Elt F) → (⟨S1048576x64, .f32⟩ : BufTy).Contents (Elt F)),
    StableHlo.binary main_v29 main_v41 main_v42 (subf : (⟨S1048576x64, .f32⟩ : BufTy).Contents (Elt F) → (⟨S1048576x64, .f32⟩ : BufTy).Contents (Elt F) → (⟨S1048576x64, .f32⟩ : BufTy).Contents (Elt F)),
    StableHlo.nullary main_cst_9 (constant S_ .f32 0x3727C5AC#32),
    StableHlo.unary main_cst_9 main_v43 (broadcastInDim S64 ![] bcast_S_S64 : (⟨S_, .f32⟩ : BufTy).Contents (Elt F) → (⟨S64, .f32⟩ : BufTy).Contents (Elt F)),
    StableHlo.binary main_v39 main_v43 main_v44 (addf : (⟨S64, .f32⟩ : BufTy).Contents (Elt F) → (⟨S64, .f32⟩ : BufTy).Contents (Elt F) → (⟨S64, .f32⟩ : BufTy).Contents (Elt F)),
    StableHlo.unary main_v44 main_v45 (Host.rsqrt : (⟨S64, .f32⟩ : BufTy).Contents (Elt F) → (⟨S64, .f32⟩ : BufTy).Contents (Elt F)),
    StableHlo.unary main_v45 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S1048576x64 ![0, 1] bcast_S1x64_S1048576x64_0_1 : (⟨S1x64, .f32⟩ : BufTy).Contents (Elt F) → (⟨S1048576x64, .f32⟩ : BufTy).Contents (Elt F)),
    StableHlo.binary main_v42 main_v47 main_v48 (mulf : (⟨S1048576x64, .f32⟩ : BufTy).Contents (Elt F) → (⟨S1048576x64, .f32⟩ : BufTy).Contents (Elt F) → (⟨S1048576x64, .f32⟩ : BufTy).Contents (Elt F)),
    StableHlo.unary main_arg4 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S1048576x64 ![0, 1] bcast_S1x64_S1048576x64_0_1 : (⟨S1x64, .f32⟩ : BufTy).Contents (Elt F) → (⟨S1048576x64, .f32⟩ : BufTy).Contents (Elt F)),
    StableHlo.binary main_v48 main_v50 main_v51 (mulf : (⟨S1048576x64, .f32⟩ : BufTy).Contents (Elt F) → (⟨S1048576x64, .f32⟩ : BufTy).Contents (Elt F) → (⟨S1048576x64, .f32⟩ : BufTy).Contents (Elt F)),
    StableHlo.unary main_arg5 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S1048576x64 ![0, 1] bcast_S1x64_S1048576x64_0_1 : (⟨S1x64, .f32⟩ : BufTy).Contents (Elt F) → (⟨S1048576x64, .f32⟩ : BufTy).Contents (Elt F)),
    StableHlo.binary main_v51 main_v53 main_v54 (addf : (⟨S1048576x64, .f32⟩ : BufTy).Contents (Elt F) → (⟨S1048576x64, .f32⟩ : BufTy).Contents (Elt F) → (⟨S1048576x64, .f32⟩ : BufTy).Contents (Elt F)) ]
theorem opsC_sub : (opsC : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The index chain and the scatter: `main_v8 … main_v29`. -/
abbrev opsB : List (HloOp τ sig (Elt F)) := opsB1 ++ opsB2 ++ opsB3 ++ opsB4
/-- @main's 123 operations in order, the calls written out. -/
abbrev ops : List (HloOp τ sig (Elt F)) := opsA ++ opsB ++ opsC

/-- Every operation touches TensorCore references only. -/
theorem ops_sub : (ops : List (HloOp τ sig (Elt F))).Forall fun op => op.bufs ⊆ tcRefs τ sig :=
  List.forall_append.2 ⟨List.forall_append.2 ⟨opsA_sub,
    List.forall_append.2 ⟨List.forall_append.2 ⟨List.forall_append.2 ⟨opsB1_sub, opsB2_sub⟩, opsB3_sub⟩, opsB4_sub⟩⟩, opsC_sub⟩

/-- Every operation determines its results. -/
theorem ops_fresh : ∀ op ∈ (ops : List (HloOp τ sig (Elt F))), op.fresh = ∅ :=
  List.forall_iff_forall_mem.1 (List.forall_append.2 ⟨List.forall_append.2 ⟨opsA_fresh,
    List.forall_append.2 ⟨List.forall_append.2 ⟨List.forall_append.2 ⟨opsB1_fresh, opsB2_fresh⟩, opsB3_fresh⟩, opsB4_fresh⟩⟩, opsC_fresh⟩)

set_option maxRecDepth 8192 in
set_option maxHeartbeats 4000000 in
/-- @main is that straight line: both windows and the three functions' definitions unfolded at their calls,
    both sides are one chain of operation steps once sequencing is reassociated. -/
theorem main_eq (c : Dev nD) : main (F := F) c = seq ops := by
  simp only [main, main_part0, main_part1, fn_floor_divide.body, fn_remainder.body, fn_where.body, fn_where_0.body,
    ops, opsA, opsB, opsB1, opsB2, opsB3, opsB4, opsC, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution
    of @main terminates, and every final state has each buffer at the operations' fold over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefValue.lean ====
import proofs.«103970_j66271345377493_1_alg».proof.Proof.RefRun

/-! What the reference's fold holds at the buffers a value proof reads, at a generic valuation `W` of the
    buffers: the arguments are never written; the scatter's result is the scatter-add of its three operands'
    values; the final result is the column-wise normalization of the scatter's result; the array scattered into
    is the outer sum of the two matrix products. Each is read off the fold by rewriting every operation's
    result at its own buffer to its function's value and at any other buffer to what was there. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over two lists run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## No operation writes an argument -/

theorem arg0_eq (W : Valuation τ sig (Elt F)) :
    after ops W (Proc.devRef .tc main_arg0) = W (Proc.devRef .tc main_arg0) := by
  simp only [ops, opsB, after_app]
  after_results_simp

theorem arg1_eq (W : Valuation τ sig (Elt F)) :
    after ops W (Proc.devRef .tc main_arg1) = W (Proc.devRef .tc main_arg1) := by
  simp only [ops, opsB, after_app]
  after_results_simp

theorem arg2_eq (W : Valuation τ sig (Elt F)) :
    after ops W (Proc.devRef .tc main_arg2) = W (Proc.devRef .tc main_arg2) := by
  simp only [ops, opsB, after_app]
  after_results_simp

theorem arg3_eq (W : Valuation τ sig (Elt F)) :
    after ops W (Proc.devRef .tc main_arg3) = W (Proc.devRef .tc main_arg3) := by
  simp only [ops, opsB, after_app]
  after_results_simp

theorem arg4_eq (W : Valuation τ sig (Elt F)) :
    after ops W (Proc.devRef .tc main_arg4) = W (Proc.devRef .tc main_arg4) := by
  simp only [ops, opsB, after_app]
  after_results_simp

theorem arg5_eq (W : Valuation τ sig (Elt F)) :
    after ops W (Proc.devRef .tc main_arg5) = W (Proc.devRef .tc main_arg5) := by
  simp only [ops, opsB, after_app]
  after_results_simp

theorem arg6_eq (W : Valuation τ sig (Elt F)) :
    after ops W (Proc.devRef .tc main_arg6) = W (Proc.devRef .tc main_arg6) := by
  simp only [ops, opsB, after_app]
  after_results_simp

/-! ## The scatter line: rows of `main_arg1` added into `main_v7` at the rows `main_v28` names -/

set_option maxHeartbeats 1000000 in
theorem v29_eq (W : Valuation τ sig (Elt F)) :
    after ops W (Proc.devRef .tc main_v29)
      = Host.scatterAdd (F := F) scatter_S1048576x64_S131072x1_S131072x64_1_0_0_1 (after ops W (Proc.devRef .tc main_v7))
          (after ops W (Proc.devRef .tc main_v28)) (W (Proc.devRef .tc main_arg1)) := by
  rw [← arg1_eq W]
  simp only [ops, opsB, after_app]
  generalize after opsB3 (after opsB2 (after opsB1 (after opsA W))) = V
  after_results_simp

/-! ## The result: the normalization of the scattered array, column by column -/

set_option maxHeartbeats 1000000 in
theorem v54_eq (W : Valuation τ sig (Elt F)) :
    after ops W (Proc.devRef .tc main_v54)
      = addf (mulf (mulf (subf (after ops W (Proc.devRef .tc main_v29)) (broadcastInDim S1048576x64 ![0, 1] bcast_S1x64_S1048576x64_0_1 (broadcastInDim S1x64 ![1] bcast_S64_S1x64_1 (Host.divf (F := F) (Host.reduceAdd (F := F) (after ops W (Proc.devRef .tc main_v29)) (constant (F := F) S_ .f32 0x00000000#32) reducesTo_S1048576x64_S64_d0 h_S_) (broadcastInDim S64 ![] bcast_S_S64 (constant (F := F) S_ .f32 0x49800000#32)))))) (broadcastInDim S1048576x64 ![0, 1] bcast_S1x64_S1048576x64_0_1 (broadcastInDim S1x64 ![1] bcast_S64_S1x64_1 (Host.rsqrt (F := F) (addf (Host.divf (F := F) (Host.reduceAdd (F := F) (mulf (subf (after ops W (Proc.devRef .tc main_v29)) (broadcastInDim S1048576x64 ![0, 1] bcast_S1x64_S1048576x64_0_1 (broadcastInDim S1x64 ![1] bcast_S64_S1x64_1 (Host.divf (F := F) (Host.reduceAdd (F := F) (after ops W (Proc.devRef .tc main_v29)) (constant (F := F) S_ .f32 0x00000000#32) reducesTo_S1048576x64_S64_d0 h_S_) (broadcastInDim S64 ![] bcast_S_S64 (constant (F := F) S_ .f32 0x49800000#32)))))) (subf (after ops W (Proc.devRef .tc main_v29)) (broadcastInDim S1048576x64 ![0, 1] bcast_S1x64_S1048576x64_0_1 (broadcastInDim S1x64 ![1] bcast_S64_S1x64_1 (Host.divf (F := F) (Host.reduceAdd (F := F) (after ops W (Proc.devRef .tc main_v29)) (constant (F := F) S_ .f32 0x00000000#32) reducesTo_S1048576x64_S64_d0 h_S_) (broadcastInDim S64 ![] bcast_S_S64 (constant (F := F) S_ .f32 0x49800000#32))))))) (constant (F := F) S_ .f32 0x00000000#32) reducesTo_S1048576x64_S64_d0 h_S_) (broadcastInDim S64 ![] bcast_S_S64 (constant (F := F) S_ .f32 0x49800000#32))) (broadcastInDim S64 ![] bcast_S_S64 (constant (F := F) S_ .f32 0x3727C5AC#32))))))) (broadcastInDim S1048576x64 ![0, 1] bcast_S1x64_S1048576x64_0_1 (broadcastInDim S1x64 ![1] bcast_S64_S1x64_1 (W (Proc.devRef .tc main_arg4))))) (broadcastInDim S1048576x64 ![0, 1] bcast_S1x64_S1048576x64_0_1 (broadcastInDim S1x64 ![1] bcast_S64_S1x64_1 (W (Proc.devRef .tc main_arg5)))) := by
  rw [← arg4_eq W, ← arg5_eq W]
  simp only [ops, after_app]
  generalize after opsB (after opsA W) = V
  after_results_simp

/-! ## The array scattered into: the outer sum of the two matrix products, as rows -/

set_option maxHeartbeats 1000000 in
theorem v7_eq (W : Valuation τ sig (Elt F)) :
    after ops W (Proc.devRef .tc main_v7)
      = shapeCast S1048576x64 (addf (broadcastInDim S64x128x128x64 ![0, 1, 2, 3] bcast_S64x128x1x64_S64x128x128x64_0_1_2_3 (shapeCast S64x128x1x64 (Host.dotGeneral (F := F) dot_S8192x24_S24x64_S8192x64_1_0_0_1_n_n none (W (Proc.devRef .tc main_arg0)) (W (Proc.devRef .tc main_arg2))) shapeCasts_S8192x64_S64x128x1x64)) (broadcastInDim S64x128x128x64 ![0, 1, 2, 3] bcast_S64x1x128x64_S64x128x128x64_0_1_2_3 (shapeCast S64x1x128x64 (Host.dotGeneral (F := F) dot_S8192x24_S24x64_S8192x64_1_0_0_1_n_n none (W (Proc.devRef .tc main_arg0)) (W (Proc.devRef .tc main_arg3))) shapeCasts_S8192x64_S64x1x128x64))) shapeCasts_S64x128x128x64_S1048576x64 := by
  simp only [ops, opsB, after_app]
  after_results_simp
  rfl

end Cert.ReferenceIdeal.Hand

end
-- ==== Proof.RefIndex.lean ====
import proofs.«103970_j66271345377493_1_alg».proof.Proof.RefRun
import proofs.«103970_j66271345377493_1_alg».proof.Proof.FlatIndex
import Idealize.ShloMosaic.Lib.StableHlo.Run

/-! The reference program's index chain, read off the fold of its operations: the column of row numbers that the
    scatter reads is the flat row number of every edge — the graph of the source node times 16384, plus the source
    node within its graph times 128, plus the destination node within its graph, wrapped where negative — as one
    function of the edge list the program was launched with. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- THE COLUMN OF ROW NUMBERS after the run is the flat row number of every edge of the launch edge list: every
    operation's result is rewritten, at its own buffer, to its function of its operands' contents and, at any other
    buffer, to what was there; what is left is the composition of the integer operations, which is the flat row
    number's definition unfolded. -/
theorem index_eq (W : Valuation τ sig (Elt F)) :
    StableHlo.after (ops (F := F)) W (Proc.devRef .tc main_v28)
      = Cert.PairNorm.flatIndex slices_S2x131072_S1x131072_0_0 slices_S2x131072_S1x131072_1_0 shapeCasts_S1x131072_S131072 bcast_S_S131072 bcast_S131072_S131072x1_0 (W (Proc.devRef .tc main_arg6)) := by
  simp only [ops, opsA, opsB, opsB1, opsB2, opsB3, opsB4, opsC, List.cons_append, List.nil_append]
  after_results_simp
  rfl

end Cert.ReferenceIdeal.Hand

end
-- ==== Proof.RefResult.lean ====
import proofs.«103970_j66271345377493_1_alg».proof.Proof.RefValue
import proofs.«103970_j66271345377493_1_alg».proof.Proof.RefIndex
import proofs.«103970_j66271345377493_1_alg».proof.Proof.HostTails
import proofs.«103970_j66271345377493_1_alg».proof.Proof.PairSum
import proofs.«103970_j66271345377493_1_alg».proof.Proof.NormSpec
import proofs.«103970_j66271345377493_1_alg».proof.Proof.FlatIndex

/-! The reference's result as one function of its arguments, at the ideal instance: the scatter's operand is the
    outer sum of the two matrix products, its row numbers the flat index of the edge list, and the normalization
    after it is the one through the deviations from the column means. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

/-- The array the normalization runs over, as a function of the arguments: the outer sum of the two matrix
    products laid out as rows, with each row of `a1` added into the row the edge list names. -/
def scattered (a0 : FVec Ideal S8192x24 .f32) (a1 : FVec Ideal S131072x64 .f32) (a2 a3 : FVec Ideal S24x64 .f32) (a6 : IVec S2x131072 32) : FVec Ideal S1048576x64 .f32 :=
  Host.scatterAdd (F := Ideal) scatter_S1048576x64_S131072x1_S131072x64_1_0_0_1
    (shapeCast S1048576x64 (Cert.PairNorm.pairSum (shapeCast S64x128x1x64 (Host.dotGeneral (F := Ideal) dot_S8192x24_S24x64_S8192x64_1_0_0_1_n_n none a0 a2) shapeCasts_S8192x64_S64x128x1x64) (shapeCast S64x1x128x64 (Host.dotGeneral (F := Ideal) dot_S8192x24_S24x64_S8192x64_1_0_0_1_n_n none a0 a3) shapeCasts_S8192x64_S64x1x128x64)) shapeCasts_S64x128x128x64_S1048576x64)
    (Cert.PairNorm.flatIndex slices_S2x131072_S1x131072_0_0 slices_S2x131072_S1x131072_1_0 shapeCasts_S1x131072_S131072 bcast_S_S131072 bcast_S131072_S131072x1_0 a6) a1

set_option maxHeartbeats 400000 in
/-- The scatter's result is `scattered` of the arguments: its first operand is the sum of the two broadcasts, which
    is the outer sum; its second the flat index; its third the argument itself. -/
theorem scattered_eq (W : Valuation τ sig (Elt Ideal)) :
    after (ops (F := Ideal)) W (Proc.devRef .tc main_v29) = scattered (W (Proc.devRef .tc main_arg0)) (W (Proc.devRef .tc main_arg1)) (W (Proc.devRef .tc main_arg2)) (W (Proc.devRef .tc main_arg3)) (W (Proc.devRef .tc main_arg6)) := by
  rw [v29_eq, v7_eq, index_eq, Cert.KernelIdeal.PairSum.host_eq]
  rfl

set_option maxHeartbeats 400000 in
/-- The result buffer holds the normalization through the deviations of `scattered` of the arguments. -/
theorem result_eq (W : Valuation τ sig (Elt Ideal)) :
    after (ops (F := Ideal)) W (Proc.devRef .tc main_v54)
      = Cert.PairNorm.viaDeviations (scattered (W (Proc.devRef .tc main_arg0)) (W (Proc.devRef .tc main_arg1)) (W (Proc.devRef .tc main_arg2)) (W (Proc.devRef .tc main_arg3)) (W (Proc.devRef .tc main_arg6))) (W (Proc.devRef .tc main_arg4)) (W (Proc.devRef .tc main_arg5)) := by
  rw [v54_eq, scattered_eq W]
  exact (show _ = Cert.ReferenceIdeal.Tail.tail _ _ _ from rfl).trans (Cert.ReferenceIdeal.Tail.tail_eq _ _ _)

end Cert.ReferenceIdeal.Hand

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.LibVariance.lean ====
/-
  The variance identity on the extended reals, in the shape the two programs compute it.

  For a family f of N finite values, with every sum started from the zero word Z and every quotient the extended
  reals' division by the count word C = N, and μ = (Z + ∑ f) / C the mean:
      (Z + ∑ (f − μ)²) / C  =  (Z + ∑ f²) / C  −  μ²
  — the mean of the squared deviations from the mean on the left (what a variance over the whole array computes), the
  mean of the squares less the square of the mean on the right (what is computed from column sums and column sums of
  squares). Both sides are then reals, the common value is nonnegative, so adding a positive real leaves a positive real
  and the reciprocal square root of that is a real. Finiteness of every f r is needed: at an infinite entry the left
  side is +∞ and the right side is +∞ − +∞.

  Also here: the words that occur (zero, the counts 160000 and 400000, the stabiliser 1e-5) read as reals.
-/
import Mathlib
import Idealize.ShloMosaic.PureOps.Ideal
import proofs.«103970_j66271345377493_1_alg».proof.Proof.LibMoments

noncomputable section

namespace Moments

open Finset Idealize.ShloMosaic

/-! ## The words as reals -/

/-- The single-precision word of all zeros is the number 0. -/
theorem zero_word : Ideal.ofBits .f32 0x00000000#32 = 0 := by simp [Ideal.ofBits, Ideal.ieee]

/-- The word 0x481C4000 is the number 160000 = (2^23 + 1851392) · 2^(144 − 127 − 23). -/
theorem count160000_word : Ideal.ofBits .f32 0x481C4000#32 = ((160000 : ℝ) : EReal) := by
  simp [Ideal.ofBits, Ideal.ieee]
  rw [← EReal.coe_mul]
  norm_num

/-- The word 0x48C35000 is the number 400000 = (2^23 + 4411392) · 2^(145 − 127 − 23). -/
theorem count400000_word : Ideal.ofBits .f32 0x48C35000#32 = ((400000 : ℝ) : EReal) := by
  simp [Ideal.ofBits, Ideal.ieee]
  rw [← EReal.coe_mul]
  norm_num

/-- The stabiliser word 0x3727C5AC (about 1e-5) is a positive real. -/
theorem eps_word : ∃ e : ℝ, 0 < e ∧ Ideal.ofBits .f32 0x3727C5AC#32 = (e : EReal) := by
  refine ⟨_, ?_, by simp [Ideal.ofBits, Ideal.ieee]; rfl⟩
  positivity

/-! ## The reciprocal square root of a positive real -/

/-- At a positive real the reciprocal square root is the real 1 / √x. -/
theorem rsqrt_coe_pos {x : ℝ} (hx : 0 < x) : Ideal.rsqrt ((x : ℝ) : EReal) = (((Real.sqrt x)⁻¹ : ℝ) : EReal) := by
  rw [Ideal.rsqrt_coe, if_neg (not_lt.2 hx.le), if_neg hx.ne']

/-- The reciprocal square root of a positive real is finite. -/
theorem rsqrt_fin {x : ℝ} (hx : 0 < x) : Fin' (Ideal.rsqrt ((x : ℝ) : EReal)) := ⟨_, rsqrt_coe_pos hx⟩

/-- The reciprocal square root of a positive real is a positive real. -/
theorem rsqrt_pos {x : ℝ} (hx : 0 < x) : ∃ y : ℝ, 0 < y ∧ Ideal.rsqrt ((x : ℝ) : EReal) = (y : EReal) :=
  ⟨_, inv_pos.2 (Real.sqrt_pos.2 hx), rsqrt_coe_pos hx⟩

/-! ## The identity for a family of reals -/

/-- The two-moment identity on the extended reals for a family of reals: every quotient the extended reals'
    division by the count N, every sum started from 0. -/
theorem var_coe {ι : Type*} (s : Finset ι) (x : ι → ℝ) (N : ℝ) (hN : (s.card : ℝ) = N) (h0 : N ≠ 0) :
    Ideal.div (0 + ∑ i ∈ s, ((x i : EReal) - Ideal.div (0 + ∑ j ∈ s, (x j : EReal)) (N : EReal))
        * ((x i : EReal) - Ideal.div (0 + ∑ j ∈ s, (x j : EReal)) (N : EReal))) (N : EReal)
      = Ideal.div (0 + ∑ i ∈ s, (x i : EReal) * (x i : EReal)) (N : EReal)
        - Ideal.div (0 + ∑ j ∈ s, (x j : EReal)) (N : EReal) * Ideal.div (0 + ∑ j ∈ s, (x j : EReal)) (N : EReal) := by
  have hμ : Ideal.div (0 + ∑ j ∈ s, (x j : EReal)) (N : EReal) = (((∑ j ∈ s, x j) / N : ℝ) : EReal) := by
    rw [zero_add, ← coe_sum, div_coe_coe _ h0]
  rw [hμ]
  have h1 : ∀ i, ((x i : EReal) - (((∑ j ∈ s, x j) / N : ℝ) : EReal)) * ((x i : EReal) - (((∑ j ∈ s, x j) / N : ℝ) : EReal))
      = (((x i - (∑ j ∈ s, x j) / N) * (x i - (∑ j ∈ s, x j) / N) : ℝ) : EReal) := fun i => by
    rw [← EReal.coe_sub, ← EReal.coe_mul]
  have h2 : ∀ i, (x i : EReal) * (x i : EReal) = ((x i * x i : ℝ) : EReal) := fun i => (EReal.coe_mul _ _).symm
  simp only [h1, h2]
  rw [zero_add, zero_add, ← coe_sum, ← coe_sum, div_coe_coe _ h0, div_coe_coe _ h0, ← EReal.coe_mul, ← EReal.coe_sub,
    var_real s x N hN h0]

/-- The mean of squared deviations of a family of reals from any real m, over a positive count, is a nonnegative real. -/
theorem dev_coe_nonneg {ι : Type*} (s : Finset ι) (x : ι → ℝ) (m : ℝ) (N : ℝ) (hpos : 0 < N) :
    ∃ v : ℝ, 0 ≤ v ∧ Ideal.div (0 + ∑ i ∈ s, ((x i : EReal) - (m : EReal)) * ((x i : EReal) - (m : EReal))) (N : EReal) = (v : EReal) := by
  have h1 : ∀ i, ((x i : EReal) - (m : EReal)) * ((x i : EReal) - (m : EReal)) = (((x i - m) * (x i - m) : ℝ) : EReal) := fun i => by
    rw [← EReal.coe_sub, ← EReal.coe_mul]
  refine ⟨(∑ i ∈ s, (x i - m) * (x i - m)) / N, div_nonneg (Finset.sum_nonneg fun i _ => mul_self_nonneg _) hpos.le, ?_⟩
  simp only [h1]
  rw [zero_add, ← coe_sum, div_coe_coe _ hpos.ne']

/-! ## The identity for a finite family over a finite index type

  Z is the zero word, C the count word: hZ and hC say what numbers they are. -/

section Family

variable {ι : Type*} [Fintype ι] (N : ℝ) (Z C : EReal) (f : ι → EReal)

/-- The mean of a finite family is finite. -/
theorem mean_fin (h0 : N ≠ 0) (hZ : Z = 0) (hC : C = (N : EReal)) (hf : ∀ r, Fin' (f r)) :
    Fin' (Ideal.div (Z + ∑ j, f j) C) := by
  subst hZ hC
  exact (Fin'.zero.add (Fin'.sum _ _ fun i _ => hf i)).div h0

/-- The mean of the squares of a finite family is finite. -/
theorem meansq_fin (h0 : N ≠ 0) (hZ : Z = 0) (hC : C = (N : EReal)) (hf : ∀ r, Fin' (f r)) :
    Fin' (Ideal.div (Z + ∑ r, f r * f r) C) := by
  subst hZ hC
  exact (Fin'.zero.add (Fin'.sum _ _ fun i _ => (hf i).mul (hf i))).div h0

/-- The variance identity: the mean of the squared deviations from the mean is the mean of the squares less the square
    of the mean. -/
theorem var_fin (hN : (Fintype.card ι : ℝ) = N) (h0 : N ≠ 0) (hZ : Z = 0) (hC : C = (N : EReal)) (hf : ∀ r, Fin' (f r)) :
    Ideal.div (Z + ∑ r, (f r - Ideal.div (Z + ∑ j, f j) C) * (f r - Ideal.div (Z + ∑ j, f j) C)) C
      = Ideal.div (Z + ∑ r, f r * f r) C - Ideal.div (Z + ∑ j, f j) C * Ideal.div (Z + ∑ j, f j) C := by
  subst hZ hC
  choose x hx using hf
  obtain rfl : f = fun r => (x r : EReal) := funext hx
  exact var_coe Finset.univ x N (by rw [Finset.card_univ]; exact hN) h0

/-- The left side is a nonnegative real. -/
theorem var_nonneg (hpos : 0 < N) (hZ : Z = 0) (hC : C = (N : EReal)) (hf : ∀ r, Fin' (f r)) :
    ∃ v : ℝ, 0 ≤ v ∧
      Ideal.div (Z + ∑ r, (f r - Ideal.div (Z + ∑ j, f j) C) * (f r - Ideal.div (Z + ∑ j, f j) C)) C = (v : EReal) := by
  obtain ⟨m, hm⟩ := mean_fin N Z C f hpos.ne' hZ hC hf
  rw [hm]
  subst hZ hC
  choose x hx using hf
  obtain rfl : f = fun r => (x r : EReal) := funext hx
  exact dev_coe_nonneg Finset.univ x m N hpos

/-- The right side is the same nonnegative real. -/
theorem var2_nonneg (hN : (Fintype.card ι : ℝ) = N) (hpos : 0 < N) (hZ : Z = 0) (hC : C = (N : EReal)) (hf : ∀ r, Fin' (f r)) :
    ∃ v : ℝ, 0 ≤ v ∧
      Ideal.div (Z + ∑ r, f r * f r) C - Ideal.div (Z + ∑ j, f j) C * Ideal.div (Z + ∑ j, f j) C = (v : EReal) := by
  rw [← var_fin N Z C f hN hpos.ne' hZ hC hf]
  exact var_nonneg N Z C f hpos hZ hC hf

/-- Both sides are finite. -/
theorem var_fin' (hpos : 0 < N) (hZ : Z = 0) (hC : C = (N : EReal)) (hf : ∀ r, Fin' (f r)) :
    Fin' (Ideal.div (Z + ∑ r, (f r - Ideal.div (Z + ∑ j, f j) C) * (f r - Ideal.div (Z + ∑ j, f j) C)) C) := by
  obtain ⟨v, _, hv⟩ := var_nonneg N Z C f hpos hZ hC hf
  exact ⟨v, hv⟩

theorem var2_fin' (hN : (Fintype.card ι : ℝ) = N) (hpos : 0 < N) (hZ : Z = 0) (hC : C = (N : EReal)) (hf : ∀ r, Fin' (f r)) :
    Fin' (Ideal.div (Z + ∑ r, f r * f r) C - Ideal.div (Z + ∑ j, f j) C * Ideal.div (Z + ∑ j, f j) C) := by
  obtain ⟨v, _, hv⟩ := var2_nonneg N Z C f hN hpos hZ hC hf
  exact ⟨v, hv⟩

/-- The left side plus a positive real E is a positive real. -/
theorem var_add_pos (hpos : 0 < N) (hZ : Z = 0) (hC : C = (N : EReal)) (hf : ∀ r, Fin' (f r))
    (E : EReal) (hE : ∃ e : ℝ, 0 < e ∧ E = (e : EReal)) :
    ∃ y : ℝ, 0 < y ∧
      Ideal.div (Z + ∑ r, (f r - Ideal.div (Z + ∑ j, f j) C) * (f r - Ideal.div (Z + ∑ j, f j) C)) C + E = (y : EReal) := by
  obtain ⟨v, hv0, hv⟩ := var_nonneg N Z C f hpos hZ hC hf
  obtain ⟨e, he0, rfl⟩ := hE
  exact ⟨v + e, by linarith, by rw [hv, EReal.coe_add]⟩

/-- The reciprocal square root of the left side plus a positive real is finite. -/
theorem rsqrt_var_fin (hpos : 0 < N) (hZ : Z = 0) (hC : C = (N : EReal)) (hf : ∀ r, Fin' (f r))
    (E : EReal) (hE : ∃ e : ℝ, 0 < e ∧ E = (e : EReal)) :
    Fin' (Ideal.rsqrt
      (Ideal.div (Z + ∑ r, (f r - Ideal.div (Z + ∑ j, f j) C) * (f r - Ideal.div (Z + ∑ j, f j) C)) C + E)) := by
  obtain ⟨y, hy0, hy⟩ := var_add_pos N Z C f hpos hZ hC hf E hE
  rw [hy]
  exact rsqrt_fin hy0

end Family

/-! ## The two instances: 160000 rows and 400000 rows, with the words as the programs carry them -/

/-- 160000 rows. -/
theorem var160000 (f : Fin 160000 → EReal) (hf : ∀ r, Fin' (f r)) :
    Ideal.div (Ideal.ofBits .f32 0x00000000#32 + ∑ r, (f r - Ideal.div (Ideal.ofBits .f32 0x00000000#32 + ∑ j, f j) (Ideal.ofBits .f32 0x481C4000#32))
        * (f r - Ideal.div (Ideal.ofBits .f32 0x00000000#32 + ∑ j, f j) (Ideal.ofBits .f32 0x481C4000#32))) (Ideal.ofBits .f32 0x481C4000#32)
      = Ideal.div (Ideal.ofBits .f32 0x00000000#32 + ∑ r, f r * f r) (Ideal.ofBits .f32 0x481C4000#32)
        - Ideal.div (Ideal.ofBits .f32 0x00000000#32 + ∑ j, f j) (Ideal.ofBits .f32 0x481C4000#32)
          * Ideal.div (Ideal.ofBits .f32 0x00000000#32 + ∑ j, f j) (Ideal.ofBits .f32 0x481C4000#32) :=
  var_fin 160000 _ _ f (by rw [Fintype.card_fin]; norm_num) (by norm_num) zero_word count160000_word hf

theorem mean160000_fin (f : Fin 160000 → EReal) (hf : ∀ r, Fin' (f r)) :
    Fin' (Ideal.div (Ideal.ofBits .f32 0x00000000#32 + ∑ j, f j) (Ideal.ofBits .f32 0x481C4000#32)) :=
  mean_fin 160000 _ _ f (by norm_num) zero_word count160000_word hf

/-- 160000 rows: the variance plus the stabiliser is a positive real. -/
theorem var160000_add_eps_pos (f : Fin 160000 → EReal) (hf : ∀ r, Fin' (f r)) :
    ∃ y : ℝ, 0 < y ∧
      Ideal.div (Ideal.ofBits .f32 0x00000000#32 + ∑ r, (f r - Ideal.div (Ideal.ofBits .f32 0x00000000#32 + ∑ j, f j) (Ideal.ofBits .f32 0x481C4000#32))
        * (f r - Ideal.div (Ideal.ofBits .f32 0x00000000#32 + ∑ j, f j) (Ideal.ofBits .f32 0x481C4000#32))) (Ideal.ofBits .f32 0x481C4000#32)
        + Ideal.ofBits .f32 0x3727C5AC#32 = (y : EReal) :=
  var_add_pos 160000 _ _ f (by norm_num) zero_word count160000_word hf _ eps_word

/-- 400000 rows. -/
theorem var400000 (f : Fin 400000 → EReal) (hf : ∀ r, Fin' (f r)) :
    Ideal.div (Ideal.ofBits .f32 0x00000000#32 + ∑ r, (f r - Ideal.div (Ideal.ofBits .f32 0x00000000#32 + ∑ j, f j) (Ideal.ofBits .f32 0x48C35000#32))
        * (f r - Ideal.div (Ideal.ofBits .f32 0x00000000#32 + ∑ j, f j) (Ideal.ofBits .f32 0x48C35000#32))) (Ideal.ofBits .f32 0x48C35000#32)
      = Ideal.div (Ideal.ofBits .f32 0x00000000#32 + ∑ r, f r * f r) (Ideal.ofBits .f32 0x48C35000#32)
        - Ideal.div (Ideal.ofBits .f32 0x00000000#32 + ∑ j, f j) (Ideal.ofBits .f32 0x48C35000#32)
          * Ideal.div (Ideal.ofBits .f32 0x00000000#32 + ∑ j, f j) (Ideal.ofBits .f32 0x48C35000#32) :=
  var_fin 400000 _ _ f (by rw [Fintype.card_fin]; norm_num) (by norm_num) zero_word count400000_word hf

theorem mean400000_fin (f : Fin 400000 → EReal) (hf : ∀ r, Fin' (f r)) :
    Fin' (Ideal.div (Ideal.ofBits .f32 0x00000000#32 + ∑ j, f j) (Ideal.ofBits .f32 0x48C35000#32)) :=
  mean_fin 400000 _ _ f (by norm_num) zero_word count400000_word hf

/-- 400000 rows: the variance plus the stabiliser is a positive real. -/
theorem var400000_add_eps_pos (f : Fin 400000 → EReal) (hf : ∀ r, Fin' (f r)) :
    ∃ y : ℝ, 0 < y ∧
      Ideal.div (Ideal.ofBits .f32 0x00000000#32 + ∑ r, (f r - Ideal.div (Ideal.ofBits .f32 0x00000000#32 + ∑ j, f j) (Ideal.ofBits .f32 0x48C35000#32))
        * (f r - Ideal.div (Ideal.ofBits .f32 0x00000000#32 + ∑ j, f j) (Ideal.ofBits .f32 0x48C35000#32))) (Ideal.ofBits .f32 0x48C35000#32)
        + Ideal.ofBits .f32 0x3727C5AC#32 = (y : EReal) :=
  var_add_pos 400000 _ _ f (by norm_num) zero_word count400000_word hf _ eps_word

end Moments

end
-- ==== Proof.Moments.lean ====
/-
  The two normalisations agree on finite inputs.

  Fix a channel and let f be the column of X at that channel: a family of N = 1048576 finite extended reals. Write
  s = ∑ f and q = ∑ f² for the two column moments and μ = s / N for the mean. The variance identity says that the mean
  of the squared deviations (f − μ)² equals q / N − μ²; both are the same nonnegative real, so adding the positive
  stabiliser ε gives a positive real y and its reciprocal square root is a real ρ. With x, g, b the entry, the gain and
  the offset as reals, what is left is the identity of real numbers
      x · (g · ρ) + (b − μ · (g · ρ)) = (x − μ) · ρ · g + b.
  Finiteness of every entry is what lets each quantity be read as a real before any algebra is done: the extended
  reals are not a ring at ±∞.
-/
import Mathlib
import Idealize.ShloMosaic.PureOps.Ideal
import proofs.«103970_j66271345377493_1_alg».proof.Proof.NormSpec
import proofs.«103970_j66271345377493_1_alg».proof.Proof.LibVariance

noncomputable section

namespace Cert.PairNorm

open Finset Idealize.ShloMosaic Idealize.ShloMosaic.ValueIdx

/-! ## The three words as reals -/

/-- The word 0x49800000 is the number 1048576 = 2^23 · 2^(147 − 127 − 23) = 2^20. -/
theorem count_word : countW = ((1048576 : ℝ) : EReal) := by
  unfold countW
  simp [Ideal.ofBits, Ideal.ieee]
  rw [← EReal.coe_mul]
  norm_num

/-- The zero word is the number 0. -/
theorem zero_word : zeroW = 0 := Moments.zero_word

/-- The stabiliser word is a positive real. -/
theorem eps_word : ∃ e : ℝ, 0 < e ∧ epsW = (e : EReal) := Moments.eps_word

/-! ## One channel, over an abstract column f -/

/-- For a column f of 1048576 finite values, and a finite entry x, gain g and offset b: the entry scaled and shifted
    by the two folded numbers of the moment form equals the entry centred, scaled by the reciprocal deviation and
    the gain, and offset. -/
theorem channel_eq (f : Fin 1048576 → EReal) (hf : ∀ r, Moments.Fin' (f r)) (x g b : EReal)
    (hx : Moments.Fin' x) (hg : Moments.Fin' g) (hb : Moments.Fin' b) :
    x * scaleOf (∑ r, f r) (∑ r, f r * f r) g + shiftOf (∑ r, f r) (∑ r, f r * f r) g b
      = (x - Ideal.div (zeroW + ∑ r, f r) countW)
          * Ideal.rsqrt (Ideal.div (zeroW + ∑ r, (f r - Ideal.div (zeroW + ∑ j, f j) countW)
              * (f r - Ideal.div (zeroW + ∑ j, f j) countW)) countW + epsW) * g + b := by
  have hN : (Fintype.card (Fin 1048576) : ℝ) = 1048576 := by rw [Fintype.card_fin]; norm_num
  have hpos : (0 : ℝ) < 1048576 := by norm_num
  -- the variance identity, the variance plus ε as a positive real y, the mean as a real μ, rsqrt y as a real ρ
  have hvar := Moments.var_fin 1048576 zeroW countW f hN hpos.ne' zero_word count_word hf
  obtain ⟨y, hy0, hy⟩ := Moments.var_add_pos 1048576 zeroW countW f hpos zero_word count_word hf epsW eps_word
  obtain ⟨μ, hμ⟩ := Moments.mean_fin 1048576 zeroW countW f hpos.ne' zero_word count_word hf
  obtain ⟨ρ, _, hρ⟩ := Moments.rsqrt_pos hy0
  -- the same two facts for the sums that do not start from the zero word
  have hy2 : Ideal.div (∑ r, f r * f r) countW - Ideal.div (∑ r, f r) countW * Ideal.div (∑ r, f r) countW + epsW
      = (y : EReal) := by
    rw [← hy, hvar, zero_word, zero_add, zero_add]
  have hμ2 : Ideal.div (∑ r, f r) countW = (μ : EReal) := by rw [← hμ, zero_word, zero_add]
  obtain ⟨x', rfl⟩ := hx
  obtain ⟨g', rfl⟩ := hg
  obtain ⟨b', rfl⟩ := hb
  unfold shiftOf scaleOf
  rw [hy2, hy, hρ, hμ, hμ2]
  simp only [← EReal.coe_mul, ← EReal.coe_sub, ← EReal.coe_add]
  congr 1
  ring

/-! ## All channels -/

/-- On finite inputs, normalising through the two column moments and through the deviations from the mean give the
    same array. -/
theorem viaMoments_eq_viaDeviations (X : Rows.Idx → EReal) (γ β : Chan.Idx → EReal)
    (hX : ∀ i, Moments.Fin' (X i)) (hγ : ∀ j, Moments.Fin' (γ j)) (hβ : ∀ j, Moments.Fin' (β j)) :
    viaMoments X γ β = viaDeviations X γ β := by
  funext i
  have h := channel_eq (fun r => X (ix2 r (i 1))) (fun r => hX _) (X i) (γ (ix1 (i 1))) (β (ix1 (i 1)))
    (hX i) (hγ _) (hβ _)
  unfold viaMoments viaDeviations meanOf
  exact h

end Cert.PairNorm

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«103970_j66271345377493_1_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.FiniteOps.lean ====
/-
  Closure of the finite values under the host operations that build an array.

  At the exact values a float is an extended real, and a value is FINITE when it is the coercion of a real
  (`Moments.Fin'`). Each host operation below sends arrays all of whose entries are finite to an array all of whose
  entries are finite:
  * an accumulating scatter: an entry of the result is an entry of the operand plus a finite sum of entries of the updates;
  * a dot product: an entry of the result is a finite sum of products of an entry of each operand;
  * a shape cast (a reshape) and a broadcast: every entry of the result is an entry of the operand;
  * an entrywise sum, and the sum of a source row and a destination row over all ordered pairs.
-/
import Mathlib
import Idealize.ShloMosaic.PureOps.Ideal
import Idealize.ShloMosaic.PureOps.Ideal.Laws
import Idealize.ShloMosaic.Lib.ValueIdx
import Idealize.ShloMosaic.Lib.Pipeline.Value
import proofs.«103970_j66271345377493_1_alg».proof.Proof.LibMoments
import proofs.«103970_j66271345377493_1_alg».proof.Proof.LibRowIndexed
import proofs.«103970_j66271345377493_1_alg».proof.Proof.Spec

namespace Cert.PairNorm

open Idealize.ShloMosaic Idealize.ShloMosaic.ValueIdx

/-- An accumulating scatter of finite updates into a finite operand is finite: the entry at `i` is the operand's entry
    plus the sum of the update entries that land on `i`, a finite sum of finite values. -/
theorem scatterAdd_fin {s si u : Shape} {φ : FTy} {w : Nat} (d : ScatterDims s si u) (x : FVec Ideal s φ)
    (idx : IVec si w) (upd : FVec Ideal u φ) (hx : ∀ i, Moments.Fin' (x i)) (hu : ∀ j, Moments.Fin' (upd j)) :
    ∀ i, Moments.Fin' (Host.scatterAdd (F := Ideal) d x idx upd i) := by
  intro i
  rw [RowIndexed.scatterAdd_ideal]
  exact (hx i).add (Moments.Fin'.sum _ _ fun j _ => hu j)

/-- A dot product of two arrays of finite values is finite: the entry at `i` is the sum, over the contraction index,
    of the products of an entry of each operand. -/
theorem dot_fin {sl sr so : Shape} {φ₁ φ₂ : FTy} (d : DotDims sl sr so) (prec : Option ContractPrecision)
    (l : FVec Ideal sl φ₁) (r : FVec Ideal sr φ₂) (hl : ∀ i, Moments.Fin' (l i)) (hr : ∀ i, Moments.Fin' (r i)) :
    ∀ i, Moments.Fin' (Host.dotGeneral (F := Ideal) d prec l r i) := by
  intro i
  show Moments.Fin' (FloatOps.dotGeneral d prec .single l r i)
  rw [Ideal.dotGeneral_apply]
  exact Moments.Fin'.sum _ _ fun k _ => (hl _).mul (hr _)

/-- A shape cast keeps the entries (in row-major order under the other shape), so it keeps them finite. -/
theorem shapeCast_fin {s t : Shape} (x : s.Idx → EReal) (h : s.ShapeCasts t) (hx : ∀ i, Moments.Fin' (x i)) :
    ∀ j, Moments.Fin' (shapeCast t x h j) :=
  fun j => hx (Shape.reshapeEquiv h j)

/-- The sum of a finite source row and a finite destination row is finite, at every ordered pair and channel. -/
theorem pairSum_fin (s : Src.Idx → EReal) (d : Dst.Idx → EReal) (hs : ∀ i, Moments.Fin' (s i))
    (hd : ∀ i, Moments.Fin' (d i)) : ∀ i, Moments.Fin' (pairSum s d i) :=
  fun _ => (hs _).add (hd _)

/-- The entrywise sum of two arrays of finite values is finite. -/
theorem add_fin {s : Shape} {φ : FTy} (a b : FVec Ideal s φ) (ha : ∀ i, Moments.Fin' (a i))
    (hb : ∀ i, Moments.Fin' (b i)) : ∀ i, Moments.Fin' (addf a b i) :=
  fun i => (ha i).add (hb i)

/-- A broadcast reads, at every result index, one entry of the operand, so it keeps the entries finite. -/
theorem broadcastInDim_fin {s t : Shape} (dims : Fin s.rank → Fin t.rank) (h : s.BroadcastsInDim t dims)
    (x : s.Idx → EReal) (hx : ∀ i, Moments.Fin' (x i)) : ∀ j, Moments.Fin' (broadcastInDim t dims h x j) :=
  fun _ => hx _

end Cert.PairNorm
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.FiniteInputs.lean ====
/-
  The precondition read back: every floating-point input entry is a real number.

  The precondition is the conjunction, over the six floating-point inputs, of "every entry x has |x| < +∞", each
  conjunct a reduction by `and` over all axes of the entrywise comparison of |x| = max(x, −x) with the word of +∞,
  started from 1. The whole being 1, every conjunct is 1; a reduction by `and` into a single result that is 1 met a 1
  at every entry; and an extended real whose absolute value lies strictly below +∞ is neither +∞ nor −∞, so it is the
  coercion of a real. The integer input is not constrained.
-/
import proofs.«103970_j66271345377493_1_alg».proof.Pre_finite_inputs
import proofs.«103970_j66271345377493_1_alg».proof.Proof.Gen.Pre_finite_inputs
import proofs.«103970_j66271345377493_1_alg».proof.Proof.LibMoments
import proofs.«103970_j66271345377493_1_alg».proof.Proof.LibStraightThrough
import Idealize.ShloMosaic.Lib.ReduceAll
import Idealize.ShloMosaic.Lib.ValueIdx
import Idealize.ShloMosaic.PureOps.Ideal

noncomputable section

namespace Cert.PairNorm

open Idealize.ShloMosaic Cert.Pre_finite_inputs

/-- The shape with no axes has exactly one index. -/
instance subsingleton_scalar_idx : Subsingleton S_.Idx := ⟨fun a b => funext fun d => d.elim0⟩

/-- One conjunct, for an array a of any shape: if the reduction by `and`, over all axes and started from 1, of the
    entrywise test |a i| < +∞ is 1, then every entry of a is a real number. -/
theorem all_fin {s : Shape} {axes : List (Fin s.rank)} (a : FVec Ideal s .f32)
    (bc : S_.BroadcastsInDim s (![] : Fin 0 → Fin s.rank)) (hr : s.ReducesTo axes S_) (h0 : 0 < S_.numel)
    (j : S_.Idx)
    (e : Host.reduce IntOp.andi (cmpf .olt (Host.absf a) (broadcastInDim s ![] bc (constant S_ .f32 0x7F800000#32)))
      (constantI S_ 1 1#1) hr h0 j = 1#1) :
    ∀ i, Moments.Fin' (a i) := by
  intro i
  -- the test at entry i is 1, and it is the comparison max (a i) (−a i) < +∞ on the extended reals
  have h := Host.reduce_andi_all _ _ hr h0 j e i
  exact Cert.LibStraightThrough.real_of_abs_lt_inf (a i) h

/-- The precondition being 1 makes every entry of the six floating-point inputs a real number. -/
theorem finite_of_pre [Cert.Pre_finite_inputs.Facts] (a0 : FVec Ideal Cert.Pre_finite_inputs.S8192x24 .f32)
    (a1 : FVec Ideal Cert.Pre_finite_inputs.S131072x64 .f32) (a2 a3 : FVec Ideal Cert.Pre_finite_inputs.S24x64 .f32)
    (a4 a5 : FVec Ideal Cert.Pre_finite_inputs.S64 .f32) (a6 : IVec Cert.Pre_finite_inputs.S2x131072 32)
    (h : Cert.Pre_finite_inputs.fn (F := Ideal) a0 a1 a2 a3 a4 a5 a6 = fun _ => 1#1) :
    (∀ i, Moments.Fin' (a0 i)) ∧ (∀ i, Moments.Fin' (a1 i)) ∧ (∀ i, Moments.Fin' (a2 i)) ∧ (∀ i, Moments.Fin' (a3 i))
      ∧ (∀ i, Moments.Fin' (a4 i)) ∧ (∀ i, Moments.Fin' (a5 i)) := by
  have h0 := congrFun h ValueIdx.ix0
  dsimp only [Cert.Pre_finite_inputs.fn, Cert.Pre_finite_inputs.fn_part1] at h0
  -- the conjunction is nested to the left: peel the last conjunct off five times
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_fin a0 _ _ _ _ e0, all_fin a1 _ _ _ _ e1, all_fin a2 _ _ _ _ e2, all_fin a3 _ _ _ _ e3,
    all_fin a4 _ _ _ _ e4, all_fin a5 _ _ _ _ e5⟩

end Cert.PairNorm

end
-- ==== Proof.lean ====
/-
  The certificate: the Pallas program and its jnp reference compute the same batch-normalised all-pairs features.

  Both programs project the node features twice, form for every ordered pair of nodes of a graph the sum of the
  source row of one node and the destination row of the other, add the edge attributes into the rows the edge list
  names, and normalise every channel of the resulting array X over its 1048576 rows with a gain γ and an offset β.
  The Pallas program builds the pair sums in a first launch, takes the column sums of X and of X² in a second, lets
  the host fold mean, variance (mean of squares minus squared mean), gain and offset into one scale row and one
  shift row, and applies X · scale + shift in a third. The reference computes the mean, the variance as the mean of
  the squared deviations, and (X − mean) · rsqrt(variance + ε) · γ + β on the host.
  On the extended reals the two agree wherever every float input is finite: then every entry of X is a real, the two
  variances are the same nonnegative real (the two-moment identity), the stabiliser ε makes the argument of the
  reciprocal square root positive, and what is left is an identity of real polynomials. Finiteness is used exactly
  there; the frames of the three programs and the trivial ledger need none of it.
-/
import proofs.«103970_j66271345377493_1_alg».proof.Defs
import proofs.«103970_j66271345377493_1_alg».proof.Proof.Gen.Kernel
import proofs.«103970_j66271345377493_1_alg».proof.Proof.Gen.Kernel.Frame
import proofs.«103970_j66271345377493_1_alg».proof.Proof.Gen.KernelIdeal
import proofs.«103970_j66271345377493_1_alg».proof.Proof.Gen.KernelIdeal.Frame
import proofs.«103970_j66271345377493_1_alg».proof.Proof.Gen.ReferenceIdeal
import proofs.«103970_j66271345377493_1_alg».proof.Proof.Gen.Pre_finite_inputs
import proofs.«103970_j66271345377493_1_alg».proof.Proof.KernelRun
import proofs.«103970_j66271345377493_1_alg».proof.Proof.KernelValue
import proofs.«103970_j66271345377493_1_alg».proof.Proof.RefResult
import proofs.«103970_j66271345377493_1_alg».proof.Proof.Moments
import proofs.«103970_j66271345377493_1_alg».proof.Proof.FiniteOps
import proofs.«103970_j66271345377493_1_alg».proof.Proof.FiniteInputs
import Idealize.ShloMosaic.Adequacy
import Idealize.ShloMosaic.Init

noncomputable section

namespace Cert.Proof

open Idealize.ShloMosaic Idealize.ShloMosaic.TcCoe Idealize.SL.Sem Cert.PairNorm

/-- The word-level program runs to the end and leaves its arguments alone. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference is a list of host operations none of which writes an argument. -/
theorem frame_reference : Cert.frame_ReferenceIdeal := fun m ρ _ =>
  (θ_run Cert.ReferenceIdeal.defs _ _).mono
    (fun _ h c => ⟨(h c _).trans (Cert.ReferenceIdeal.Hand.arg0_eq _), (h c _).trans (Cert.ReferenceIdeal.Hand.arg1_eq _),
      (h c _).trans (Cert.ReferenceIdeal.Hand.arg2_eq _), (h c _).trans (Cert.ReferenceIdeal.Hand.arg3_eq _),
      (h c _).trans (Cert.ReferenceIdeal.Hand.arg4_eq _), (h c _).trans (Cert.ReferenceIdeal.Hand.arg5_eq _),
      (h c _).trans (Cert.ReferenceIdeal.Hand.arg6_eq _)⟩)
    (Cert.ReferenceIdeal.Hand.run_raw (F := Ideal) m ρ)

/-- The array X is the same function of the arguments in both programs: the same projections, pair sums, row
    numbers and scatter, spelt over each program's own records. -/
theorem scattered_same (a0 : FVec Ideal Cert.KernelIdeal.S8192x24 .f32) (a1 : FVec Ideal Cert.KernelIdeal.S131072x64 .f32)
    (a2 a3 : FVec Ideal Cert.KernelIdeal.S24x64 .f32) (a6 : IVec Cert.KernelIdeal.S2x131072 32) :
    Cert.ReferenceIdeal.Hand.scattered a0 a1 a2 a3 a6 = Cert.KernelIdeal.Stages.scattered a0 a1 a2 a3 a6 := rfl

/-- Finite inputs make every entry of X a real: finite sums of products of reals, re-laid, summed in pairs, and
    with finitely many finite attribute rows added. -/
theorem scattered_fin (a0 : FVec Ideal Cert.KernelIdeal.S8192x24 .f32) (a1 : FVec Ideal Cert.KernelIdeal.S131072x64 .f32)
    (a2 a3 : FVec Ideal Cert.KernelIdeal.S24x64 .f32) (a6 : IVec Cert.KernelIdeal.S2x131072 32)
    (h0 : ∀ i, Moments.Fin' (a0 i)) (h1 : ∀ i, Moments.Fin' (a1 i)) (h2 : ∀ i, Moments.Fin' (a2 i)) (h3 : ∀ i, Moments.Fin' (a3 i)) :
    ∀ i, Moments.Fin' (Cert.KernelIdeal.Stages.scattered a0 a1 a2 a3 a6 i) :=
  scatterAdd_fin _ _ _ _
    (shapeCast_fin _ _ (pairSum_fin _ _ (shapeCast_fin _ _ (dot_fin _ _ _ _ h0 h2)) (shapeCast_fin _ _ (dot_fin _ _ _ _ h0 h3)))) h1

/-- Under finite inputs the two programs end with the same result array, element by element on the extended reals. -/
theorem algebraic : Cert.algebraic_KernelIdeal_ReferenceIdeal := by
  intro m ρ m' ρ' hpre hagree
  refine ⟨fun c => viaMoments (Cert.KernelIdeal.Stages.scattered
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result_W12 m ρ c), (h c).2⟩)
      (Cert.KernelIdeal.Result.run_result (F := Ideal) m ρ)
  · refine (θ_run Cert.ReferenceIdeal.defs _ _).mono (fun _ h c => ⟨?_, (h c _).trans (Cert.ReferenceIdeal.Hand.arg0_eq _),
      (h c _).trans (Cert.ReferenceIdeal.Hand.arg1_eq _), (h c _).trans (Cert.ReferenceIdeal.Hand.arg2_eq _),
      (h c _).trans (Cert.ReferenceIdeal.Hand.arg3_eq _), (h c _).trans (Cert.ReferenceIdeal.Hand.arg4_eq _),
      (h c _).trans (Cert.ReferenceIdeal.Hand.arg5_eq _), (h c _).trans (Cert.ReferenceIdeal.Hand.arg6_eq _)⟩)
      (Cert.ReferenceIdeal.Hand.run_raw (F := Ideal) m' ρ')
    obtain ⟨e0, e1, e2, e3, e4, e5, e6⟩ := hagree c
    obtain ⟨f0, f1, f2, f3, f4, f5⟩ := finite_of_pre _ _ _ _ _ _ _ (hpre c)
    refine (h c _).trans ((Cert.ReferenceIdeal.Hand.result_eq _).trans ?_)
    show viaDeviations (Cert.ReferenceIdeal.Hand.scattered
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg6)))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [e0, e1, e2, e3, e4, e5, e6, scattered_same]
    exact (viaMoments_eq_viaDeviations _ _ _ (scattered_fin _ _ _ _ _ f0 f1 f2 f3) f4 f5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
